-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x128 : Shape := ⟨2, ![1024, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S4x4096x1024 .f32) (main_arg1 : FVec F S1024x128 .f32) (main_arg2 : FVec F S1024x128 .f32) (main_arg3 : FVec F S1024x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S4x4096x1024 : Shape := ⟨3, ![4, 4096, 1024]⟩
abbrev S1024x128 : Shape := ⟨2, ![1024, 128]⟩
abbrev S1024x384 : Shape := ⟨2, ![1024, 384]⟩
abbrev S4x4096x384 : Shape := ⟨3, ![4, 4096, 384]⟩
abbrev S1x2048x1024 : Shape := ⟨3, ![1, 2048, 1024]⟩
abbrev S1x2048x384 : Shape := ⟨3, ![1, 2048, 384]⟩
abbrev S2048x1024 : Shape := ⟨2, ![2048, 1024]⟩
abbrev S2048x384 : Shape := ⟨2, ![2048, 384]⟩
abbrev S4x4096x128 : Shape := ⟨3, ![4, 4096, 128]⟩
abbrev S1x512x128 : Shape := ⟨3, ![1, 512, 128]⟩
abbrev S1x4096x128 : Shape := ⟨3, ![1, 4096, 128]⟩
abbrev S1x512x4096 : Shape := ⟨3, ![1, 512, 4096]⟩
abbrev S1x512 : Shape := ⟨2, ![1, 512]⟩
abbrev S1x512x1 : Shape := ⟨3, ![1, 512, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S4x4096x384, .f32⟩
  | .hbm, ⟨6, _⟩ => ⟨S4x4096x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x384, .f32⟩
  | .local _ .vmem, ⟨3, _⟩ => ⟨S1x2048x384, .f32⟩
  | .local _ .vmem, ⟨4, _⟩ => ⟨S1x2048x384, .f32⟩
  | .local _ .vmem, ⟨5, _⟩ => ⟨S1x512x128, .f32⟩
  | .local _ .vmem, ⟨6, _⟩ => ⟨S1x512x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x512x128, .f32⟩
  | .local _ .vmem, ⟨12, _⟩ => ⟨S1x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x128_S1024x128_S1024x128_S1024x384_d1 : Shape.Concatenates [S1024x128, S1024x128, S1024x128] S1024x384 1
  inb_S1x2048x1024_S1x2048x1024_0_0_0 : ∀ a, (![0, 0, 0] : Fin 3 → Nat) a + S1x2048x1024.size a ≤ S1x2048x1024.size a
  h_S1x2048x1024 : 0 < S1x2048x1024.numel
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  shapeCasts_S1x2048x1024_S2048x1024 : S1x2048x1024.ShapeCasts S2048x1024
  shapeCasts_S2048x384_S1x2048x384 : S2048x384.ShapeCasts S1x2048x384
  inb_S1x2048x384_S1x2048x384_0_0_0 : ∀ a, (![0, 0, 0] : Fin 3 → Nat) a + S1x2048x384.size a ≤ S1x2048x384.size a
  h_S1x2048x384 : 0 < S1x2048x384.numel
  inb_S1x512x128_S1x512x128_0_0_0 : ∀ a, (![0, 0, 0] : Fin 3 → Nat) a + S1x512x128.size a ≤ S1x512x128.size a
  h_S1x512x128 : 0 < S1x512x128.numel
  shapeCasts_S1x512x128_S1x512x128 : S1x512x128.ShapeCasts S1x512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S1x4096x128 : S1x4096x128.ShapeCasts S1x4096x128
  reduces_S1x512x4096_S1x512 : S1x512x4096.Reduces [2] S1x512
  shapeCasts_S1x512_S1x512x1 : S1x512.ShapeCasts S1x512x1
  broadcasts_S1x512x1_S1x512x4096 : S1x512x1.Broadcasts S1x512x4096
  broadcasts_S1x512x1_S1x512x128 : S1x512x1.Broadcasts S1x512x128
  dot_S2048x1024_S1024x384_S2048x384_1_0_0_1_n_n_wf : DotDims.WF S2048x1024 S1024x384 S2048x384 [1] [0] [0] [1] [] []
  dot_S1x512x128_S1x4096x128_S1x512x4096_2_2_1_1_0_0_wf : DotDims.WF S1x512x128 S1x4096x128 S1x512x4096 [2] [2] [1] [1] [0] [0]
  dot_S1x512x4096_S1x4096x128_S1x512x128_2_1_1_2_0_0_wf : DotDims.WF S1x512x4096 S1x4096x128 S1x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x4096x1024.size a
  hwx0_0 : ∀ i : grid0.Coords, EltTy.bits .f32 = 32 ∨ (Rect.block (s := S4x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x384.size a ≤ S4x4096x384.size a
  hwx0_2 : ∀ i : grid0.Coords, EltTy.bits .f32 = 32 ∨ (Rect.block (s := S4x4096x384) S1x2048x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x4096x384.size a
  hwx1_0 : ∀ i : grid1.Coords, EltTy.bits .f32 = 32 ∨ (Rect.block (s := S4x4096x384) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S4x4096x384.size a
  hwx1_1 : ∀ i : grid1.Coords, EltTy.bits .f32 = 32 ∨ (Rect.block (s := S4x4096x384) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S4x4096x384.size a
  hwx1_2 : ∀ i : grid1.Coords, EltTy.bits .f32 = 32 ∨ (Rect.block (s := S4x4096x384) S1x4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x4096x128.size a
  hwx1_3 : ∀ i : grid1.Coords, EltTy.bits .f32 = 32 ∨ (Rect.block (s := S4x4096x128) S1x512x128.size (cc1_transform_3 i) (hinb1_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S1x512x128_S1x4096x128_S1x512x4096_2_2_1_1_0_0 : DotDims S1x512x128 S1x4096x128 S1x512x4096 where
  lhsContracting := [2]
  rhsContracting := [2]
  lhsNonContracting := [1]
  rhsNonContracting := [1]
  lhsBatch := [0]
  rhsBatch := [0]
  wf := dot_S1x512x128_S1x4096x128_S1x512x4096_2_2_1_1_0_0_wf
def dot_S1x512x4096_S1x4096x128_S1x512x128_2_1_1_2_0_0 : DotDims S1x512x4096 S1x4096x128 S1x512x128 where
  lhsContracting := [2]
  rhsContracting := [1]
  lhsNonContracting := [1]
  rhsNonContracting := [2]
  lhsBatch := [0]
  rhsBatch := [0]
  wf := dot_S1x512x4096_S1x4096x128_S1x512x128_2_1_1_2_0_0_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x128 : Shape := ⟨2, ![1024, 128]⟩
abbrev S4x4096x128 : Shape := ⟨3, ![4, 4096, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x128_S4x4096x128_2_0_01_1_n_n_wf : DotDims.WF S4x4096x1024 S1024x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x1024_S1024x128_S4x4096x128_2_0_01_1_n_n : DotDims S4x4096x1024 S1024x128 S4x4096x128 where
  lhsContracting := [2]
  rhsContracting := [0]
  lhsNonContracting := [0, 1]
  rhsNonContracting := [1]
  lhsBatch := []
  rhsBatch := []
  wf := dot_S4x4096x1024_S1024x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KB.Body0.lean ====
/-
  The projection call's body at one grid point, and the proof data of its pipeline, at any float instance.
  A point's three windows are: the block of 2048 rows of the input, the whole weight matrix [Wq | Wk | Wv],
  and the block of 2048 rows of the result. The body reads the first two whole and stores one value covering the
  third, so what the result's buffer holds after the body is that one stored value, a function of the two blocks.
-/
import proofs.«126636_j16612933501467_2_alg».proof.Proof.Gen.Kernel.Launch
import proofs.«126636_j16612933501467_2_alg».proof.Proof.Gen.Kernel.Skeleton
import proofs.«126636_j16612933501467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block of rows, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, though it is fetched only once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S1x2048x1024 := Rect.unit (s := S1x2048x1024) ![0, 0, 0] S1x2048x1024.size inb_S1x2048x1024_S1x2048x1024_0_0_0
abbrev r0_1 : Rect S1024x384 := Rect.unit (s := S1024x384) ![0, 0] S1024x384.size inb_S1024x384_S1024x384_0_0
abbrev r0_2 : Rect S1x2048x384 := Rect.unit (s := S1x2048x384) ![0, 0, 0] S1x2048x384.size inb_S1x2048x384_S1x2048x384_0_0_0

/-- What the result's staging buffer holds after the body: its one store, of the product of the two blocks. -/
def out0_2 (x0 : Vec F S1x2048x1024 .f32) (x1 : Vec F S1024x384 .f32) : Vec F S1x2048x384 .f32 :=
  View.canon [⟨r0_2, k0_pay1 (View.ld x0 r0_0) (View.ld x1 r0_1)⟩]

/-- The one store covers the buffer. -/
theorem cover0_2 (p0 : Vec F S1x2048x384 .f32) (y : S1x2048x384.Idx) :
    ∃ pc ∈ ([⟨r0_2, p0⟩] : List (View.Piece (Elt F) S1x2048x384 .f32)), y ∈ pc.1.set :=
  View.cover_of_tiled [⟨r0_2, p0⟩] S1x2048x384.size (by rfl) y

set_option maxHeartbeats 1000000 in
/-- The body on whole staging buffers, the inputs' at contents `x0`, `x1` and the result's at anything, runs to the
    continuation with the inputs' buffers unchanged and the result's at `out0_2 x0 x1`. -/
theorem sound_kernel0 (c : Dev nD) (E : Set ℕ) (i : grid0.Coords) (arg2 : Memref sig .tc .vmem S1x2048x1024 .f32) (harg2 : arg2.IsWhole) (arg3 : Memref sig .tc .vmem S1024x384 .f32) (harg3 : arg3.IsWhole) (arg4 : Memref sig .tc .vmem S1x2048x384 .f32) (harg4 : arg4.IsWhole)
    (x0 : Vec F S1x2048x1024 .f32) (x1 : Vec F S1024x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body each input's buffer at its
    block and the result's at the stored product; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  The attention call's body at one grid point, and the proof data of its pipeline, at any float instance.
  A point's four windows are: 512 query rows (columns 0–127 of the projections), all 4096 key rows (columns
  128–255), all 4096 value rows (columns 256–383) — three windows onto ONE array, the projections — and 512 rows of
  the result. The body reads the first three whole and stores one value covering the fourth. The three input windows
  hold the projections' array at a third of its full share each.
-/
import proofs.«126636_j16612933501467_2_alg».proof.Proof.Gen.Kernel.Launch
import proofs.«126636_j16612933501467_2_alg».proof.Proof.Gen.Kernel.Skeleton
import proofs.«126636_j16612933501467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch's keys at every point, though they are fetched once per batch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_q : Rect S1x512x128 := Rect.unit (s := S1x512x128) ![0, 0, 0] S1x512x128.size inb_S1x512x128_S1x512x128_0_0_0
abbrev r1_kv : Rect S1x4096x128 := Rect.unit (s := S1x4096x128) ![0, 0, 0] S1x4096x128.size inb_S1x4096x128_S1x4096x128_0_0_0

/-- What the result's staging buffer holds after the body: its one store, of the attention of the three blocks. -/
def out1_3 (x0 : Vec F S1x512x128 .f32) (x1 : Vec F S1x4096x128 .f32) (x2 : Vec F S1x4096x128 .f32) : Vec F S1x512x128 .f32 :=
  View.canon [⟨r1_q, k1_pay1 (View.ld x0 r1_q) (View.ld x1 r1_kv) (View.ld x2 r1_kv)⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging buffers, the inputs' at contents `x0`, `x1`, `x2` and the result's at anything, runs to
    the continuation with the inputs' buffers unchanged and the result's at `out1_3 x0 x1 x2`. -/
theorem sound_kernel1 (c : Dev nD) (E : Set ℕ) (i : grid1.Coords) (arg2 : Memref sig .tc .vmem S1x512x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x512x128 .f32) (harg5 : arg5.IsWhole)
    (x0 : Vec F S1x512x128 .f32) (x1 : Vec F S1x4096x128 .f32) (x2 : Vec F S1x4096x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body each input's buffer at its
    block and the result's at the stored attention; the invariant is the scoped rest and the generator register,
    untouched; nothing owed; the projections' array held a third each by its three windows (a half, and the two halves
    of the other half). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.LibShares.lean ====
/-
  A buffer held whole at the full share is the same buffer held three times, at a half and at the two halves of the
  other half, with the same contents — and back. This is how one array is dealt to three input windows of a pipeline
  that look at it at once (a fused q/k/v projection read by an attention call through three block specifications), and
  how the three shares rejoin at the call's exit, the array unchanged. Any machine parameters.
-/
import Idealize.ShloMosaic.Lib.Pipeline.Kit

noncomputable section

namespace Cert.LibShares

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

/-- The full share of a buffer at contents `f` is a half and two quarters of it at `f`, and back. -/
theorem thirds (ℓ : Loc nD τ sig) (f : Buf Val ℓ) :
    (ℓ ↦{fullShare} f : sProp (MT nD τ sig Ix Val Name U Lvl))
      ⊣⊢ iprop((ℓ ↦{fullShare.left} f) ∗ (ℓ ↦{fullShare.right.left} f) ∗ (ℓ ↦{fullShare.right.right} f)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

end Cert.LibShares

end
-- ==== Proof.KB.Run.lean ====
/-
  The whole run of @main: one host operation (the three weight matrices side by side), the projection call, the
  attention call. Between two items every unscoped buffer of the core is held whole at named contents: the launch
  memory, then with the concatenated weights written, then with the projections' array at what the first call's
  write-backs leave, then with the result at what the second call's write-backs leave. Each call takes its arrays out
  of those buffers at entry and puts them back at exit; the attention call's three input windows look at one array,
  which is dealt to them in three shares at entry and rejoined at exit, its contents unchanged.
  The run's post reads every unscoped buffer of the final memory at the last contents: the arguments there are the
  launch's, and the result is the attention call's array after its last write-back.
-/
import proofs.«126636_j16612933501467_2_alg».proof.Proof.KB.Body0
import proofs.«126636_j16612933501467_2_alg».proof.Proof.KB.Body1
import proofs.«126636_j16612933501467_2_alg».proof.Proof.Gen.Kernel.Regions
import proofs.«126636_j16612933501467_2_alg».proof.Proof.LibShares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operation. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention call: the result's array at what the pipeline leaves, every other buffer as entered. -/
def W3 (c : Dev nD) : Valuation τ sig (Elt F) :=
  Function.update (W2 m c) (Proc.devRef .tc main_v2) ((dat1 (V2 m) c).arrAt 3 cfg1.N)
abbrev V3 : (c : Dev nD) → (b : Ref sig .tc) → Buf (Elt F) ((c : Thread nD τ).loc b) := fun c b => W3 m c b
theorem W3_out (c : Dev nD) : W3 m c (Proc.devRef .tc main_v2) = (dat1 (V2 m) c).arrAt 3 cfg1.N := by
  unfold W3; exact Function.update_self _ _ _
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) _ _

/-! ### The arguments end as launched -/

theorem W1_of (c : Dev nD) (r : Ref sig .tc) (h : r ∉ hostOps0_W) : W1 m c r = W0 m c r :=
  StableHlo.after_of_writes_sub hostOps0 _ hostOps0_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The projection call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call as a segment: one array, three windows -/

section Shares
variable {m}
variable (c : Dev nD)

/-- The buffers behind the attention call's arrays are two: the projections and the result. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

end Shares

/-- The attention call's arrays, window by window: the projections at a half and two quarters, the result whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ]
  rfl

set_option backward.isDefEq.respectTransparency.types false in
/-- ENTRY of the attention call: the core's unscoped buffers give the call's arrays — the projections dealt to the
    three input windows in three shares — and the rest. -/
theorem split1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (V2 m c)) := by
  have h0 : (StableHlo.held (c : Thread nD τ) (Pipeline.ucRefs τ sig) (W2 m c) : sProp 𝕄)
      = unscopedBufs (Ix := Unit) (Name := ℕ) (U := UR sig nD τ) (Lvl := ℕ) c (V2 m c) :=
    (Pipeline.unscopedBufs_held c (W2 m c)).symm
  have h1 : (unscopedBufs (Ix := Unit) (Name := ℕ) (U := UR sig nD τ) (Lvl := ℕ) c (V2 m c) : sProp 𝕄)
      = iprop(Pipeline.arrBufs spec1 c (V2 m c) ∗ Pipeline.unscopedRest spec1 c (V2 m c)) :=
    Pipeline.unscopedBufs_split₀ cfgs 1 winFacts₀1.arr_unscoped c (V2 m c)
  have h3 := arrays1_eq (V2 m) c ((dat1 (V2 m) c).arrAt · 0)
  rw [h0, h1, arrBufs1_eq]
  refine BIBase.Entails.trans ?_ (sep_mono (Entails.of_eq h3.symm) Entails.rfl)
  iintro ⟨⟨H1, H2⟩, Hrest⟩
  ihave H' := (Cert.LibShares.thirds (Ix := Unit) (Name := ℕ) (U := UR sig nD τ) (Lvl := ℕ) (Val := Elt F) _ _).1 $$ H1
  icases H' with ⟨Ha, Hb, Hc⟩
  isplitr [Hrest]
  · isplitl [Ha]; · iexact Ha
    isplitl [Hb]; · iexact Hb
    isplitl [Hc]; · iexact Hc
    iexact H2
  iexact Hrest

set_option backward.isDefEq.respectTransparency.types false in
/-- EXIT of the attention call: the three shares of the projections, unchanged, rejoin; with the result's array at what
    the write-backs leave and the rest, they are the core's unscoped buffers at the last contents. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  have h0 : (StableHlo.held (c : Thread nD τ) (Pipeline.ucRefs τ sig) (W3 m c) : sProp 𝕄)
      = unscopedBufs (Ix := Unit) (Name := ℕ) (U := UR sig nD τ) (Lvl := ℕ) c (V3 m c) :=
    (Pipeline.unscopedBufs_held c (W3 m c)).symm
  have h1 : (unscopedBufs (Ix := Unit) (Name := ℕ) (U := UR sig nD τ) (Lvl := ℕ) c (V3 m c) : sProp 𝕄)
      = iprop(Pipeline.arrBufs spec1 c (V3 m c) ∗ Pipeline.unscopedRest spec1 c (V3 m c)) :=
    Pipeline.unscopedBufs_split₀ cfgs 1 winFacts₀1.arr_unscoped c (V3 m c)
  have h3 := arrays1_eq (V2 m) c ((dat1 (V2 m) c).arrAt · cfg1.N)
  have e0 : (dat1 (V2 m) c).arrAt 0 cfg1.N = V2 m c main_v1 := ((dat1 (V2 m) c).arrAt_in 0 rfl _).trans (A_eq1 (V2 m) c 0)
  have e1 : (dat1 (V2 m) c).arrAt 1 cfg1.N = V2 m c main_v1 := ((dat1 (V2 m) c).arrAt_in 1 rfl _).trans (A_eq1 (V2 m) c 1)
  have e2 : (dat1 (V2 m) c).arrAt 2 cfg1.N = V2 m c main_v1 := ((dat1 (V2 m) c).arrAt_in 2 rfl _).trans (A_eq1 (V2 m) c 2)
  have e3 : V3 m c main_v2 = (dat1 (V2 m) c).arrAt 3 cfg1.N := W3_out m c
  have e4 : V3 m c main_v1 = V2 m c main_v1 := W3_of_ne m c main_v1 (by decide)
  have hrest : (Pipeline.unscopedRest (Ix := Unit) (Name := ℕ) (U := UR sig nD τ) (Lvl := ℕ) spec1 c (V3 m c) : sProp 𝕄)
      = Pipeline.unscopedRest spec1 c (V2 m c) := by
    unfold Pipeline.unscopedRest
    exact bigSep_congr fun b hb => by
      rw [show V3 m c b = V2 m c b from W3_of_ne m c b fun e =>
        (Finset.mem_sdiff.mp hb).2 (Finset.mem_image.mpr ⟨3, Finset.mem_univ _, e.symm⟩)]
  rw [h0, h1, hrest, arrBufs1_eq, e3, e4]
  refine BIBase.Entails.trans (sep_mono (Entails.of_eq h3) Entails.rfl) ?_
  rw [e0, e1, e2]
  iintro ⟨⟨Ha, Hb, Hc, Hd⟩, Hrest⟩
  isplitr [Hrest]
  · isplitr [Hd]
    · iapply (Cert.LibShares.thirds (Ix := Unit) (Name := ℕ) (U := UR sig nD τ) (Lvl := ℕ) (Val := Elt F) _ _).2
      isplitl [Ha]; · iexact Ha
      isplitl [Hb]; · iexact Hb
      iexact Hc
    iexact Hd
  iexact Hrest

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := split1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run m ρ)

/-- THE RESULT: besides the frame, the result's array ends at what the attention call's write-backs leave. -/
theorem run_out : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_out m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run m ρ)

end Cert.Kernel.Hand

end
-- ==== Proof.KI.Body0.lean ====
/-
  The projection call's body at one grid point, and the proof data of its pipeline, at any float instance.
  A point's three windows are: the block of 2048 rows of the input, the whole weight matrix [Wq | Wk | Wv],
  and the block of 2048 rows of the result. The body reads the first two whole and stores one value covering the
  third, so what the result's buffer holds after the body is that one stored value, a function of the two blocks.
-/
import proofs.«126636_j16612933501467_2_alg».proof.Proof.Gen.KernelIdeal.Launch
import proofs.«126636_j16612933501467_2_alg».proof.Proof.Gen.KernelIdeal.Skeleton
import proofs.«126636_j16612933501467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block of rows, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, though it is fetched only once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_0 : Rect S1x2048x1024 := Rect.unit (s := S1x2048x1024) ![0, 0, 0] S1x2048x1024.size inb_S1x2048x1024_S1x2048x1024_0_0_0
abbrev r0_1 : Rect S1024x384 := Rect.unit (s := S1024x384) ![0, 0] S1024x384.size inb_S1024x384_S1024x384_0_0
abbrev r0_2 : Rect S1x2048x384 := Rect.unit (s := S1x2048x384) ![0, 0, 0] S1x2048x384.size inb_S1x2048x384_S1x2048x384_0_0_0

/-- What the result's staging buffer holds after the body: its one store, of the product of the two blocks. -/
def out0_2 (x0 : Vec F S1x2048x1024 .f32) (x1 : Vec F S1024x384 .f32) : Vec F S1x2048x384 .f32 :=
  View.canon [⟨r0_2, k0_pay1 (View.ld x0 r0_0) (View.ld x1 r0_1)⟩]

/-- The one store covers the buffer. -/
theorem cover0_2 (p0 : Vec F S1x2048x384 .f32) (y : S1x2048x384.Idx) :
    ∃ pc ∈ ([⟨r0_2, p0⟩] : List (View.Piece (Elt F) S1x2048x384 .f32)), y ∈ pc.1.set :=
  View.cover_of_tiled [⟨r0_2, p0⟩] S1x2048x384.size (by rfl) y

set_option maxHeartbeats 1000000 in
/-- The body on whole staging buffers, the inputs' at contents `x0`, `x1` and the result's at anything, runs to the
    continuation with the inputs' buffers unchanged and the result's at `out0_2 x0 x1`. -/
theorem sound_kernel0 (c : Dev nD) (E : Set ℕ) (i : grid0.Coords) (arg2 : Memref sig .tc .vmem S1x2048x1024 .f32) (harg2 : arg2.IsWhole) (arg3 : Memref sig .tc .vmem S1024x384 .f32) (harg3 : arg3.IsWhole) (arg4 : Memref sig .tc .vmem S1x2048x384 .f32) (harg4 : arg4.IsWhole)
    (x0 : Vec F S1x2048x1024 .f32) (x1 : Vec F S1024x384 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body each input's buffer at its
    block and the result's at the stored product; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  The attention call's body at one grid point, and the proof data of its pipeline, at any float instance.
  A point's four windows are: 512 query rows (columns 0–127 of the projections), all 4096 key rows (columns
  128–255), all 4096 value rows (columns 256–383) — three windows onto ONE array, the projections — and 512 rows of
  the result. The body reads the first three whole and stores one value covering the fourth. The three input windows
  hold the projections' array at a third of its full share each.
-/
import proofs.«126636_j16612933501467_2_alg».proof.Proof.Gen.KernelIdeal.Launch
import proofs.«126636_j16612933501467_2_alg».proof.Proof.Gen.KernelIdeal.Skeleton
import proofs.«126636_j16612933501467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the batch's keys at every point, though they are fetched once per batch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_q : Rect S1x512x128 := Rect.unit (s := S1x512x128) ![0, 0, 0] S1x512x128.size inb_S1x512x128_S1x512x128_0_0_0
abbrev r1_kv : Rect S1x4096x128 := Rect.unit (s := S1x4096x128) ![0, 0, 0] S1x4096x128.size inb_S1x4096x128_S1x4096x128_0_0_0

/-- What the result's staging buffer holds after the body: its one store, of the attention of the three blocks. -/
def out1_3 (x0 : Vec F S1x512x128 .f32) (x1 : Vec F S1x4096x128 .f32) (x2 : Vec F S1x4096x128 .f32) : Vec F S1x512x128 .f32 :=
  View.canon [⟨r1_q, k1_pay1 (View.ld x0 r1_q) (View.ld x1 r1_kv) (View.ld x2 r1_kv)⟩]

/-- The one store covers the buffer. -/
theorem cover1_3 (p0 : Vec F S1x512x128 .f32) (y : S1x512x128.Idx) :
    ∃ pc ∈ ([⟨r1_q, p0⟩] : List (View.Piece (Elt F) S1x512x128 .f32)), y ∈ pc.1.set :=
  View.cover_of_tiled [⟨r1_q, p0⟩] S1x512x128.size (by rfl) y

set_option maxHeartbeats 1000000 in
/-- The body on whole staging buffers, the inputs' at contents `x0`, `x1`, `x2` and the result's at anything, runs to
    the continuation with the inputs' buffers unchanged and the result's at `out1_3 x0 x1 x2`. -/
theorem sound_kernel1 (c : Dev nD) (E : Set ℕ) (i : grid1.Coords) (arg2 : Memref sig .tc .vmem S1x512x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x512x128 .f32) (harg5 : arg5.IsWhole)
    (x0 : Vec F S1x512x128 .f32) (x1 : Vec F S1x4096x128 .f32) (x2 : Vec F S1x4096x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body each input's buffer at its
    block and the result's at the stored attention; the invariant is the scoped rest and the generator register,
    untouched; nothing owed; the projections' array held a third each by its three windows (a half, and the two halves
    of the other half). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole run of @main: one host operation (the three weight matrices side by side), the projection call, the
  attention call. Between two items every unscoped buffer of the core is held whole at named contents: the launch
  memory, then with the concatenated weights written, then with the projections' array at what the first call's
  write-backs leave, then with the result at what the second call's write-backs leave. Each call takes its arrays out
  of those buffers at entry and puts them back at exit; the attention call's three input windows look at one array,
  which is dealt to them in three shares at entry and rejoined at exit, its contents unchanged.
  The run's post reads every unscoped buffer of the final memory at the last contents: the arguments there are the
  launch's, and the result is the attention call's array after its last write-back.
-/
import proofs.«126636_j16612933501467_2_alg».proof.Proof.KI.Body0
import proofs.«126636_j16612933501467_2_alg».proof.Proof.KI.Body1
import proofs.«126636_j16612933501467_2_alg».proof.Proof.Gen.KernelIdeal.Regions
import proofs.«126636_j16612933501467_2_alg».proof.Proof.LibShares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host operation. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention call: the result's array at what the pipeline leaves, every other buffer as entered. -/
def W3 (c : Dev nD) : Valuation τ sig (Elt F) :=
  Function.update (W2 m c) (Proc.devRef .tc main_v2) ((dat1 (V2 m) c).arrAt 3 cfg1.N)
abbrev V3 : (c : Dev nD) → (b : Ref sig .tc) → Buf (Elt F) ((c : Thread nD τ).loc b) := fun c b => W3 m c b
theorem W3_out (c : Dev nD) : W3 m c (Proc.devRef .tc main_v2) = (dat1 (V2 m) c).arrAt 3 cfg1.N := by
  unfold W3; exact Function.update_self _ _ _
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) _ _

/-! ### The arguments end as launched -/

theorem W1_of (c : Dev nD) (r : Ref sig .tc) (h : r ∉ hostOps0_W) : W1 m c r = W0 m c r :=
  StableHlo.after_of_writes_sub hostOps0 _ hostOps0_writes h

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The projection call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention call as a segment: one array, three windows -/

section Shares
variable {m}
variable (c : Dev nD)

/-- The buffers behind the attention call's arrays are two: the projections and the result. -/
theorem arrBufs1_eq (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v2) ↦{fullShare} V main_v2)) := by
  unfold Pipeline.arrBufs
  exact bigSep_eq_bigSepL_of_eq [main_v1, main_v2] (by decide) (by decide) _

end Shares

/-- The attention call's arrays, window by window: the projections at a half and two quarters, the result whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right.left} G 1)
          ∗ (((c : Thread nD τ).loc main_v1) ↦{fullShare.right.right} G 2) ∗ (((c : Thread nD τ).loc main_v2) ↦{fullShare} G 3)) := by
  unfold Dat.arrays
  rw [bigSep_W1, (arr_whole1 0).set_eq_univ, (arr_whole1 3).set_eq_univ]
  rfl

set_option backward.isDefEq.respectTransparency.types false in
/-- ENTRY of the attention call: the core's unscoped buffers give the call's arrays — the projections dealt to the
    three input windows in three shares — and the rest. -/
theorem split1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (V2 m c)) := by
  have h0 : (StableHlo.held (c : Thread nD τ) (Pipeline.ucRefs τ sig) (W2 m c) : sProp 𝕄)
      = unscopedBufs (Ix := Unit) (Name := ℕ) (U := UR sig nD τ) (Lvl := ℕ) c (V2 m c) :=
    (Pipeline.unscopedBufs_held c (W2 m c)).symm
  have h1 : (unscopedBufs (Ix := Unit) (Name := ℕ) (U := UR sig nD τ) (Lvl := ℕ) c (V2 m c) : sProp 𝕄)
      = iprop(Pipeline.arrBufs spec1 c (V2 m c) ∗ Pipeline.unscopedRest spec1 c (V2 m c)) :=
    Pipeline.unscopedBufs_split₀ cfgs 1 winFacts₀1.arr_unscoped c (V2 m c)
  have h3 := arrays1_eq (V2 m) c ((dat1 (V2 m) c).arrAt · 0)
  rw [h0, h1, arrBufs1_eq]
  refine BIBase.Entails.trans ?_ (sep_mono (Entails.of_eq h3.symm) Entails.rfl)
  iintro ⟨⟨H1, H2⟩, Hrest⟩
  ihave H' := (Cert.LibShares.thirds (Ix := Unit) (Name := ℕ) (U := UR sig nD τ) (Lvl := ℕ) (Val := Elt F) _ _).1 $$ H1
  icases H' with ⟨Ha, Hb, Hc⟩
  isplitr [Hrest]
  · isplitl [Ha]; · iexact Ha
    isplitl [Hb]; · iexact Hb
    isplitl [Hc]; · iexact Hc
    iexact H2
  iexact Hrest

set_option backward.isDefEq.respectTransparency.types false in
/-- EXIT of the attention call: the three shares of the projections, unchanged, rejoin; with the result's array at what
    the write-backs leave and the rest, they are the core's unscoped buffers at the last contents. -/
theorem join1 (c : Dev nD) :
    iprop((pdats m 1 c).arrays ((pdats m 1 c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  have h0 : (StableHlo.held (c : Thread nD τ) (Pipeline.ucRefs τ sig) (W3 m c) : sProp 𝕄)
      = unscopedBufs (Ix := Unit) (Name := ℕ) (U := UR sig nD τ) (Lvl := ℕ) c (V3 m c) :=
    (Pipeline.unscopedBufs_held c (W3 m c)).symm
  have h1 : (unscopedBufs (Ix := Unit) (Name := ℕ) (U := UR sig nD τ) (Lvl := ℕ) c (V3 m c) : sProp 𝕄)
      = iprop(Pipeline.arrBufs spec1 c (V3 m c) ∗ Pipeline.unscopedRest spec1 c (V3 m c)) :=
    Pipeline.unscopedBufs_split₀ cfgs 1 winFacts₀1.arr_unscoped c (V3 m c)
  have h3 := arrays1_eq (V2 m) c ((dat1 (V2 m) c).arrAt · cfg1.N)
  have e0 : (dat1 (V2 m) c).arrAt 0 cfg1.N = V2 m c main_v1 := ((dat1 (V2 m) c).arrAt_in 0 rfl _).trans (A_eq1 (V2 m) c 0)
  have e1 : (dat1 (V2 m) c).arrAt 1 cfg1.N = V2 m c main_v1 := ((dat1 (V2 m) c).arrAt_in 1 rfl _).trans (A_eq1 (V2 m) c 1)
  have e2 : (dat1 (V2 m) c).arrAt 2 cfg1.N = V2 m c main_v1 := ((dat1 (V2 m) c).arrAt_in 2 rfl _).trans (A_eq1 (V2 m) c 2)
  have e3 : V3 m c main_v2 = (dat1 (V2 m) c).arrAt 3 cfg1.N := W3_out m c
  have e4 : V3 m c main_v1 = V2 m c main_v1 := W3_of_ne m c main_v1 (by decide)
  have hrest : (Pipeline.unscopedRest (Ix := Unit) (Name := ℕ) (U := UR sig nD τ) (Lvl := ℕ) spec1 c (V3 m c) : sProp 𝕄)
      = Pipeline.unscopedRest spec1 c (V2 m c) := by
    unfold Pipeline.unscopedRest
    exact bigSep_congr fun b hb => by
      rw [show V3 m c b = V2 m c b from W3_of_ne m c b fun e =>
        (Finset.mem_sdiff.mp hb).2 (Finset.mem_image.mpr ⟨3, Finset.mem_univ _, e.symm⟩)]
  rw [h0, h1, hrest, arrBufs1_eq, e3, e4]
  refine BIBase.Entails.trans (sep_mono (Entails.of_eq h3) Entails.rfl) ?_
  rw [e0, e1, e2]
  iintro ⟨⟨Ha, Hb, Hc, Hd⟩, Hrest⟩
  isplitr [Hrest]
  · isplitr [Hd]
    · iapply (Cert.LibShares.thirds (Ix := Unit) (Name := ℕ) (U := UR sig nD τ) (Lvl := ℕ) (Val := Elt F) _ _).2
      isplitl [Ha]; · iexact Ha
      isplitl [Hb]; · iexact Hb
      iexact Hc
    iexact Hd
  iexact Hrest

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := split1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 m c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    the final memory holds every unscoped buffer of every core at the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run m ρ)

/-- THE RESULT: besides the frame, the result's array ends at what the attention call's write-backs leave. -/
theorem run_out : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_out m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run m ρ)

end Cert.KernelIdeal.Hand

end
-- ==== Proof.KI.Val0.lean ====
/-
  The projections' array after the first call, at the ideal instance, as ONE function of the input and of the
  concatenated weights: entry (b, t, j) is row (b, t) of the input times column j of [Wq | Wk | Wv]. Point (b, h) of the
  4 × 2 grid writes back rows 2048·h … 2048·h + 2047 of batch b, all 384 columns; its stored value is the product of
  its block of input rows with the whole weight matrix; the eight blocks cover the array.
  The body's stored value read at an entry is taken as a hypothesis here (`hpay`), proved beside this module.
-/
import proofs.«126636_j16612933501467_2_alg».proof.Proof.KI.Run
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Row (b, t) of the input times column j of the weights. -/
def projArr (x : S4x4096x1024.Idx → EReal) (w : S1024x384.Idx → EReal) : S4x4096x384.Idx → EReal :=
  fun i => ∑ k : Fin 1024, x (ix3 (i 0) (i 1) k) * w (ix2 k (i 2))

/-- What the body's stored value is at an entry: the hypothesis this module takes. -/
def Pay0 : Prop := ∀ (x0 : Vec Ideal S1x2048x1024 .f32) (x1 : Vec Ideal S1024x384 .f32) (r : Fin 2048) (j : Fin 384),
  k0_pay1 (F := Ideal) x0 x1 (ix3 (0 : Fin 1) r j) = ∑ k : Fin 1024, x0 (ix3 (0 : Fin 1) r k) * x1 (ix2 k j)

/-- The printed index maps, decided over the grid. -/
theorem idx_facts0 : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_1.index t (0 : Fin 2) = 0 ∧ win0_1.index t (1 : Fin 2) = 0
    ∧ win0_2.index t (2 : Fin 3) = 0 ∧ win0_2.index t (0 : Fin 3) ≤ 3 ∧ win0_2.index t (1 : Fin 3) ≤ 1 :=
  (by decide +kernel : ∀ t : Fin grid0.N, _)

/-- Every block of the result is some point's. -/
theorem idx_onto0 : ∀ (q0 : Fin 4) (q1 : Fin 2), ∃ t : Fin cfg0.N, win0_2.index t = ![q0.val, q1.val, 0] :=
  (by decide +kernel : ∀ (q0 : Fin 4) (q1 : Fin 2), ∃ t : Fin grid0.N, win0_2.index t = ![q0.val, q1.val, 0])

/-- The stored value at a block entry, over variables: the product of the two blocks. -/
theorem out0_apply (hpay : Pay0) (x0 : Vec Ideal S1x2048x1024 .f32) (x1 : Vec Ideal S1024x384 .f32) (r : Fin 2048) (j : Fin 384) :
    out0_2 (F := Ideal) x0 x1 (ix3 (0 : Fin 1) r j) = ∑ k : Fin 1024, x0 (ix3 (0 : Fin 1) r k) * x1 (ix2 k j) := by
  unfold out0_2
  rw [View.canon_unit_zero hz3]
  simp only [View.ld_unit_zero (S := S1x2048x1024) hz3, View.ld_unit_zero (S := S1024x384) hz2]
  exact hpay x0 x1 r j

/-- Point `t`'s block of the input rows times the whole weights is point `t`'s block of `projArr`, over variables. -/
theorem block0_eq (t : Fin cfg0.N) (X : S4x4096x1024.Idx → EReal) (Wc : S1024x384.Idx → EReal) (r : Fin 2048) (q : Fin 384) :
    ∑ k : Fin 1024, X (((cfg0.win 0).blk t).view.emb (ix3 (0 : Fin 1) r k)) * Wc (((cfg0.win 1).blk t).view.emb (ix2 k q))
      = projArr X Wc (((cfg0.win 2).blk t).view.emb (ix3 (0 : Fin 1) r q)) := by
  obtain ⟨e0, e1, e2, e3, e4, e5, e6, e7⟩ := idx_facts0 t
  unfold projArr
  refine Finset.sum_congr rfl fun k _ => ?_
  have h0 : ((cfg0.win 0).blk t).view.emb (ix3 (0 : Fin 1) r k)
      = ix3 ((((cfg0.win 2).blk t).view.emb (ix3 (0 : Fin 1) r q)) 0) ((((cfg0.win 2).blk t).view.emb (ix3 (0 : Fin 1) r q)) 1) k := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 2048 + 1 * r.val = win0_2.index t (1 : Fin 3) * 2048 + 1 * r.val; omega
    | ⟨2, _⟩ => show win0_0.index t (2 : Fin 3) * 1024 + 1 * k.val = k.val; omega
  have h1 : ((cfg0.win 1).blk t).view.emb (ix2 k q) = ix2 k ((((cfg0.win 2).blk t).view.emb (ix3 (0 : Fin 1) r q)) 2) := by
    funext a; apply Fin.ext
    match a with
    | ⟨0, _⟩ => show win0_1.index t (0 : Fin 2) * 1024 + 1 * k.val = k.val; omega
    | ⟨1, _⟩ => show win0_1.index t (1 : Fin 2) * 384 + 1 * q.val = win0_2.index t (2 : Fin 3) * 384 + 1 * q.val; omega
  rw [h0, h1]
  rfl

/-- WHAT POINT `t` WRITES BACK is block `t` of `projArr` of the arrays as the call finds them. -/
theorem flushed0_eq (hpay : Pay0) (c : Dev nD) (t : Fin cfg0.N) :
    (dat0 V c).flushed 2 t = ((cfg0.win 2).blk t).view.read (Elt Ideal) (projArr (V c main_arg0) (V c main_v0)) := by
  show (cfg0.win 2).cut (grid0.coords t) ((dat0 V c).after 2 t) = _
  rw [after0_2]
  funext j
  obtain ⟨r, q, rfl⟩ : ∃ (r : Fin 2048) (q : Fin 384), j = ix3 (0 : Fin 1) r q :=
    ⟨j 1, j 2, by funext a; match a with | ⟨0, _⟩ => exact Fin.ext (by have h : (j 0).val < 1 := (j 0).isLt; show (j 0).val = 0; omega) | ⟨1, _⟩ => rfl | ⟨2, _⟩ => rfl⟩
  refine (out0_apply hpay _ _ r q).trans ?_
  exact block0_eq t (V c main_arg0) (V c main_v0) r q

/-- An index of the array is in point `t`'s block iff each coordinate is in the block's range on its axis. -/
theorem mem_blk0 (t : Fin cfg0.N) (i : S4x4096x384.Idx) :
    i ∈ ((cfg0.win 2).blk t).view.set ↔ ∀ a : Fin 3, win0_2.index t a * S1x2048x384.size a ≤ (i a).val ∧ (i a).val < win0_2.index t a * S1x2048x384.size a + S1x2048x384.size a := by
  show i ∈ ((View.whole main_v1).slice (win0_2.rect t)).set ↔ _
  rw [View.set_slice_whole, Rect.mem_set_unit]
  exact Iff.rfl

/-- Every entry of the array is in some point's block. -/
theorem cover0 (i : S4x4096x384.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 384 := (i 2).isLt
  obtain ⟨t, ht⟩ := idx_onto0 ⟨(i 0).val, by omega⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 384 ≤ (i 2).val ∧ (i 2).val < win0_2.index t (2 : Fin 3) * 384 + 384; omega

/-- THE PROJECTIONS' ARRAY after the first call. -/
theorem final0 (hpay : Pay0) (c : Dev nD) :
    (dat0 V c).arrAt 2 cfg0.N = projArr (V c main_arg0) (V c main_v0) :=
  (dat0 V c).arrAt_eq_of_cover 2 _ (fun t _ => flushed0_eq V hpay c t) cover0

end Cert.KernelIdeal.HandValue

end
-- ==== Proof.Spec.lean ====
/-
  The mathematics both programs compute, stated once over the argument arrays as extended reals and importing no
  program. One attention head: the three projections q = x·Wq, k = x·Wk, v = x·Wv of a [4, 4096, 1024] input by
  [1024, 128] matrices, the scores q·kᵀ scaled by the programs' literal 1/32, and per row the softmax-weighted
  sum of the rows of v, the weights exp(s − max s).
  `attnRow` is the order the kernel computes a row in — the weighted sum divided once by the sum of the weights —
  and `attnRowRef` the reference's — every weight divided by that sum before the product. They agree on real
  entries; that law is proved where it is used, not here.
-/
import Idealize.ShloMosaic.PureOps.Ideal
import Idealize.ShloMosaic.Lib.ValueIdx

noncomputable section

open scoped BigOperators

namespace Cert.Attn

open Idealize.ShloMosaic Idealize.ShloMosaic.ValueIdx

/-- The scale both programs spell as the f32 word of 1/32 (1024 to the power −1/2). -/
def scale : EReal := Ideal.ofBits .f32 0x3D000000#32

/-- The largest of a row of scores: the fold of `max` from −∞. -/
def rowMax {n : ℕ} (s : Fin n → EReal) : EReal := Finset.univ.fold max ⊥ s

/-- The unnormalized softmax weight of entry `j` of a row of scores. -/
def weight {n : ℕ} (s : Fin n → EReal) (j : Fin n) : EReal := Ideal.exp (s j - rowMax s)

/-- The sum of a row's weights. -/
def denom {n : ℕ} (s : Fin n → EReal) : EReal := ∑ j, weight s j

/-- One output entry in the kernel's order: the weighted sum of the values, divided once by the sum of the weights. -/
def attnRow {n : ℕ} (s v : Fin n → EReal) : EReal := Ideal.div (∑ j, weight s j * v j) (denom s)

/-- One output entry in the reference's order: each weight divided by the sum of the weights, then the weighted sum. -/
def attnRowRef {n : ℕ} (s v : Fin n → EReal) : EReal := ∑ j, Ideal.div (weight s j) (denom s) * v j

/-- The input's, a weight matrix's and the result's shapes. -/
abbrev SX : Shape := ⟨3, ![4, 4096, 1024]⟩
abbrev SW : Shape := ⟨2, ![1024, 128]⟩
abbrev SO : Shape := ⟨3, ![4, 4096, 128]⟩

/-- Entry (b, t, h) of the projection x·W. -/
def proj (x : SX.Idx → EReal) (w : SW.Idx → EReal) (b : Fin 4) (t : Fin 4096) (h : Fin 128) : EReal :=
  ∑ c : Fin 1024, x (ix3 b t c) * w (ix2 c h)

/-- The scaled score of query row `t` against key row `s` in batch `b`. -/
def score (x : SX.Idx → EReal) (wq wk : SW.Idx → EReal) (b : Fin 4) (t s : Fin 4096) : EReal :=
  (∑ h : Fin 128, proj x wq b t h * proj x wk b s h) * scale

/-- The whole result, in the kernel's order of operations. -/
def out (x : SX.Idx → EReal) (wk wq wv : SW.Idx → EReal) : SO.Idx → EReal :=
  fun i => attnRow (fun s => score x wq wk (i 0) (i 1) s) (fun s => proj x wv (i 0) s (i 2))

/-- The whole result, in the reference's order of operations. -/
def outRef (x : SX.Idx → EReal) (wk wq wv : SW.Idx → EReal) : SO.Idx → EReal :=
  fun i => attnRowRef (fun s => score x wq wk (i 0) (i 1) s) (fun s => proj x wv (i 0) s (i 2))

end Cert.Attn

end
-- ==== Proof.KI.Val1.lean ====
/-
  The result's array after the second call, at the ideal instance, as ONE function of the projections' array `P`
  as the call finds it: entry (b, t, d) is the attention of query row (b, t) — columns 0–127 of `P` — against all key
  rows of batch b — columns 128–255 — weighting the value rows — columns 256–383. Point (b, g) of the 4 × 8 grid writes
  back rows 512·g … 512·g + 511 of batch b; the thirty-two blocks cover the array.
  The body's stored value read at an entry is taken as a hypothesis here (`hpay`), proved beside this module.
-/
import proofs.«126636_j16612933501467_2_alg».proof.Proof.KI.Run
import proofs.«126636_j16612933501467_2_alg».proof.Proof.Spec
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3' : (![0, 0, 0] : Fin 3 → Nat) = fun _ => 0 := funext fun a => by fin_cases a <;> rfl

/-- The three thirds of the projections' columns. -/
abbrev qcol (h : Fin 128) : Fin 384 := ⟨h.val, by have := h.isLt; omega⟩
abbrev kcol (h : Fin 128) : Fin 384 := ⟨128 + h.val, by have := h.isLt; omega⟩
abbrev vcol (h : Fin 128) : Fin 384 := ⟨256 + h.val, by have := h.isLt; omega⟩

/-- The attention of a projections array, entry by entry. -/
def attnArr (P : S4x4096x384.Idx → EReal) : S4x4096x128.Idx → EReal :=
  fun i => Cert.Attn.attnRow
    (fun s : Fin 4096 => (∑ h : Fin 128, P (ix3 (i 0) (i 1) (qcol h)) * P (ix3 (i 0) s (kcol h))) * Cert.Attn.scale)
    (fun s : Fin 4096 => P (ix3 (i 0) s (vcol (i 2))))

/-- What the body's stored value is at an entry: the hypothesis this module takes. -/
def Pay1 : Prop := ∀ (q : Vec Ideal S1x512x128 .f32) (k v : Vec Ideal S1x4096x128 .f32) (r : Fin 512) (d : Fin 128),
  k1_pay1 (F := Ideal) q k v (ix3 (0 : Fin 1) r d)
    = Cert.Attn.attnRow (fun s : Fin 4096 => (∑ h : Fin 128, q (ix3 (0 : Fin 1) r h) * k (ix3 (0 : Fin 1) s h)) * Cert.Attn.scale)
        (fun s : Fin 4096 => v (ix3 (0 : Fin 1) s d))

/-- The printed index maps, decided over the grid. -/
theorem idx_facts1 : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 1
    ∧ win1_2.index t (0 : Fin 3) = win1_3.index t (0 : Fin 3) ∧ win1_2.index t (1 : Fin 3) = 0 ∧ win1_2.index t (2 : Fin 3) = 2
    ∧ win1_3.index t (2 : Fin 3) = 0 ∧ win1_3.index t (0 : Fin 3) ≤ 3 ∧ win1_3.index t (1 : Fin 3) ≤ 7 :=
  (by decide +kernel : ∀ t : Fin grid1.N, _)

/-- Every block of the result is some point's. -/
theorem idx_onto1 : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- The stored value at a block entry, over variables: the attention of the three blocks. -/
theorem out1_apply (hpay : Pay1) (x0 : Vec Ideal S1x512x128 .f32) (x1 x2 : Vec Ideal S1x4096x128 .f32) (r : Fin 512) (d : Fin 128) :
    out1_3 (F := Ideal) x0 x1 x2 (ix3 (0 : Fin 1) r d)
      = Cert.Attn.attnRow (fun s : Fin 4096 => (∑ h : Fin 128, x0 (ix3 (0 : Fin 1) r h) * x1 (ix3 (0 : Fin 1) s h)) * Cert.Attn.scale)
          (fun s : Fin 4096 => x2 (ix3 (0 : Fin 1) s d)) := by
  unfold out1_3
  rw [View.canon_unit_zero hz3']
  simp only [View.ld_unit_zero (S := S1x512x128) hz3', View.ld_unit_zero (S := S1x4096x128) hz3']
  exact hpay x0 x1 x2 r d

/-- The attention of point `t`'s three blocks of a projections array `P` is point `t`'s block of `attnArr P`, over variables. -/
theorem block1_eq (t : Fin cfg1.N) (P : S4x4096x384.Idx → EReal) (r : Fin 512) (d : Fin 128) :
    Cert.Attn.attnRow
      (fun s : Fin 4096 => (∑ h : Fin 128, P (((cfg1.win 0).blk t).view.emb (ix3 (0 : Fin 1) r h)) * P (((cfg1.win 1).blk t).view.emb (ix3 (0 : Fin 1) s h))) * Cert.Attn.scale)
      (fun s : Fin 4096 => P (((cfg1.win 2).blk t).view.emb (ix3 (0 : Fin 1) s d)))
    = attnArr P (((cfg1.win 3).blk t).view.emb (ix3 (0 : Fin 1) r d)) := by
  obtain ⟨e0, e1, e2, e3, e4, e5, e6, e7, e8, e9, e10, e11⟩ := idx_facts1 t
  unfold attnArr
  have hq : ∀ h : Fin 128, ((cfg1.win 0).blk t).view.emb (ix3 (0 : Fin 1) r h)
      = ix3 ((((cfg1.win 3).blk t).view.emb (ix3 (0 : Fin 1) r d)) 0) ((((cfg1.win 3).blk t).view.emb (ix3 (0 : Fin 1) r d)) 1) (qcol h) := by
    intro h; funext a; apply Fin.ext
    match a with
    | ⟨0, _⟩ => show win1_0.index t (0 : Fin 3) * 1 + 1 * 0 = win1_3.index t (0 : Fin 3) * 1 + 1 * 0; omega
    | ⟨1, _⟩ => show win1_0.index t (1 : Fin 3) * 512 + 1 * r.val = win1_3.index t (1 : Fin 3) * 512 + 1 * r.val; omega
    | ⟨2, _⟩ => show win1_0.index t (2 : Fin 3) * 128 + 1 * h.val = h.val; omega
  have hk : ∀ (s : Fin 4096) (h : Fin 128), ((cfg1.win 1).blk t).view.emb (ix3 (0 : Fin 1) s h)
      = ix3 ((((cfg1.win 3).blk t).view.emb (ix3 (0 : Fin 1) r d)) 0) s (kcol h) := by
    intro s h; funext a; apply Fin.ext
    match a with
    | ⟨0, _⟩ => show win1_1.index t (0 : Fin 3) * 1 + 1 * 0 = win1_3.index t (0 : Fin 3) * 1 + 1 * 0; omega
    | ⟨1, _⟩ => show win1_1.index t (1 : Fin 3) * 4096 + 1 * s.val = s.val; omega
    | ⟨2, _⟩ => show win1_1.index t (2 : Fin 3) * 128 + 1 * h.val = 128 + h.val; omega
  have hv : ∀ s : Fin 4096, ((cfg1.win 2).blk t).view.emb (ix3 (0 : Fin 1) s d)
      = ix3 ((((cfg1.win 3).blk t).view.emb (ix3 (0 : Fin 1) r d)) 0) s (vcol ((((cfg1.win 3).blk t).view.emb (ix3 (0 : Fin 1) r d)) 2)) := by
    intro s; funext a; apply Fin.ext
    match a with
    | ⟨0, _⟩ => show win1_2.index t (0 : Fin 3) * 1 + 1 * 0 = win1_3.index t (0 : Fin 3) * 1 + 1 * 0; omega
    | ⟨1, _⟩ => show win1_2.index t (1 : Fin 3) * 4096 + 1 * s.val = s.val; omega
    | ⟨2, _⟩ => show win1_2.index t (2 : Fin 3) * 128 + 1 * d.val = 256 + (win1_3.index t (2 : Fin 3) * 128 + 1 * d.val); omega
  simp only [hq, hk, hv]
  rfl

/-- WHAT POINT `t` WRITES BACK is block `t` of `attnArr` of the projections as the call finds them. -/
theorem flushed1_eq (hpay : Pay1) (c : Dev nD) (t : Fin cfg1.N) :
    (dat1 V c).flushed 3 t = ((cfg1.win 3).blk t).view.read (Elt Ideal) (attnArr (V c main_v1)) := by
  show (cfg1.win 3).cut (grid1.coords t) ((dat1 V c).after 3 t) = _
  rw [after1_3]
  funext j
  obtain ⟨r, d, rfl⟩ : ∃ (r : Fin 512) (d : Fin 128), j = ix3 (0 : Fin 1) r d :=
    ⟨j 1, j 2, by funext a; match a with | ⟨0, _⟩ => exact Fin.ext (by have h : (j 0).val < 1 := (j 0).isLt; show (j 0).val = 0; omega) | ⟨1, _⟩ => rfl | ⟨2, _⟩ => rfl⟩
  refine (out1_apply hpay _ _ _ r d).trans ?_
  exact block1_eq t (V c main_v1) r d

/-- An index of the array is in point `t`'s block iff each coordinate is in the block's range on its axis. -/
theorem mem_blk1 (t : Fin cfg1.N) (i : S4x4096x128.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v2).slice (win1_3.rect t)).set ↔ _
  rw [View.set_slice_whole, Rect.mem_set_unit]
  exact Iff.rfl

/-- Every entry of the array is in some point's block. -/
theorem cover1 (i : S4x4096x128.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 128 := (i 2).isLt
  obtain ⟨t, ht⟩ := idx_onto1 ⟨(i 0).val, by omega⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- THE RESULT'S ARRAY after the second call. -/
theorem final1 (hpay : Pay1) (c : Dev nD) :
    (dat1 V c).arrAt 3 cfg1.N = attnArr (V c main_v1) :=
  (dat1 V c).arrAt_eq_of_cover 3 _ (fun t _ => flushed1_eq V hpay c t) cover1

end Cert.KernelIdeal.HandValue

end
-- ==== Proof.KI.Host.lean ====
/-
  What the one host operation before the calls leaves: the concatenated weight matrix is the three weight matrices
  side by side, and the input is untouched.
-/
import proofs.«126636_j16612933501467_2_alg».proof.Proof.KI.Run
import Idealize.ShloMosaic.Lib.StableHlo.Run
import Idealize.ShloMosaic.Lib.ValueIdx
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The input as the first call finds it is the launch's. -/
theorem V1_arg0 (c : Dev nD) : Hand.V1 m c main_arg0 = m ((c : Thread nD τ).loc main_arg0) := W1_of m c main_arg0 (by decide)

/-- The weights as the first call finds them: [Wq | Wk | Wv], the second, first and third weight arguments. -/
theorem V1_v0 (c : Dev nD) :
    (Hand.V1 m c main_v0 : S1024x384.Idx → EReal)
      = concatenate S1024x384 1 [⟨S1024x128, m ((c : Thread nD τ).loc main_arg2)⟩, ⟨S1024x128, m ((c : Thread nD τ).loc main_arg1)⟩, ⟨S1024x128, m ((c : Thread nD τ).loc main_arg3)⟩]
          concatenates_S1024x128_S1024x128_S1024x128_S1024x384_d1 := by
  show StableHlo.after hostOps0 (fun b => m (c, b)) (Proc.devRef .tc main_v0) = _
  after_results
  rfl

end Cert.KernelIdeal.HandValue

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.ProjPay.lean ====
/-
  The projection kernel's stored block read at an entry, on the extended reals. The body drops the block's leading unit
  axis, multiplies the [2048, 1024] rows of the input by the [1024, 384] weight matrix into a zero accumulator, and puts
  the unit axis back; a change of float format is the identity on the extended reals. So entry (0, r, j) of what it
  stores is the sum over c of the input at (0, r, c) times the weights at (c, j).
-/
import proofs.«126636_j16612933501467_2_alg».proof.Proof.Gen.KernelIdeal.Skeleton
import proofs.«126636_j16612933501467_2_alg».proof.Proof.LibBlockLayout
import proofs.«126636_j16612933501467_2_alg».proof.Proof.LibPlainMatmul
import Idealize.ShloMosaic.Lib.ValueIdx
import Idealize.ShloMosaic.Lib.Pipeline.Value
import Idealize.ShloMosaic.PureOps.Ideal.Laws

noncomputable section

open scoped BigOperators

namespace Cert.Pay

open Idealize.ShloMosaic Idealize.ShloMosaic.ValueIdx Cert.KernelIdeal

/-- The projection's dimension numbers are those of a plain matrix product: the left operand contracted on its columns,
    the right one on its rows, no batch axis. -/
theorem projDims_eq_plain :
    dot_S2048x1024_S1024x384_S2048x384_1_0_0_1_n_n = DotDims.plain 2048 1024 384 := rfl

/-- The projection's matrix product into the zero accumulator, at entry (r, j): the sum over c of A (r, c) · B (c, j). -/
theorem projMatmul_apply (A : FVec Ideal S2048x1024 .bf16) (B : FVec Ideal S1024x384 .bf16) (r : Fin 2048) (j : Fin 384) :
    matmul dot_S2048x1024_S1024x384_S2048x384_1_0_0_1_n_n none A B (constant (F := Ideal) S2048x384 .f32 0x00000000#32) (ix2 r j)
      = ∑ c : Fin 1024, A (ix2 r c) * B (ix2 c j) := by
  rw [projDims_eq_plain]
  exact Cert.LibPlainMatmul.matmul_zero_apply none A B r j

/-- Entry (0, r, j) of the block the projection kernel stores: the sum over c of the input block at (0, r, c) times the
    weight block at (c, j). -/
theorem k0_pay1_apply (x0 : Vec Ideal S1x2048x1024 .f32) (x1 : Vec Ideal S1024x384 .f32) (r : Fin 2048) (j : Fin 384) :
    Cert.KernelIdeal.Gen.k0_pay1 (F := Ideal) x0 x1 (ix3 (0 : Fin 1) r j)
      = ∑ c : Fin 1024, x0 (ix3 (0 : Fin 1) r c) * x1 (ix2 c j) := by
  unfold Cert.KernelIdeal.Gen.k0_pay1
  rw [Cert.LibBlockLayout.addUnit_at, projMatmul_apply]
  refine Finset.sum_congr rfl fun c _ => ?_
  rw [Cert.LibBlockLayout.dropUnit_at, truncf_apply, truncf_apply, shapeCast_self]

end Cert.Pay

end
-- ==== Proof.AttnMatmul.lean ====
/-
  The attention kernel's two batched matrix products read at an entry, on the extended reals. Both carry one batch axis
  of extent one. The first contracts the last axes of a [1, 512, 128] and a [1, 4096, 128] array: entry (0, r, s) is the
  sum over h of the left operand at (0, r, h) times the right operand at (0, s, h). The second contracts the last axis
  of a [1, 512, 4096] array with the middle axis of a [1, 4096, 128] array: entry (0, r, d) is the sum over s of the
  left operand at (0, r, s) times the right operand at (0, s, d). Both accumulate into zero.
-/
import proofs.«126636_j16612933501467_2_alg».proof.Proof.Gen.KernelIdeal
import Idealize.ShloMosaic.Lib.ValueIdx
import Idealize.ShloMosaic.PureOps.Ideal.Laws

noncomputable section

open scoped BigOperators

namespace Cert.Pay

open Idealize.ShloMosaic Idealize.ShloMosaic.ValueIdx Cert.KernelIdeal

/-! ## The scores' product: both operands contracted on their last axis -/

theorem scoreDims_lhs0 (i : S1x512x4096.Idx) (q : dot_S1x512x128_S1x4096x128_S1x512x4096_2_2_1_1_0_0.contr.Idx) :
    (dot_S1x512x128_S1x4096x128_S1x512x4096_2_2_1_1_0_0.lhsIdx i q 0).val = (i 0).val := by
  unfold DotDims.lhsIdx
  rw [dif_pos (show (0 : Fin S1x512x128.rank) ∈ dot_S1x512x128_S1x4096x128_S1x512x4096_2_2_1_1_0_0.lhsBatch by decide)]
  rfl
theorem scoreDims_lhs1 (i : S1x512x4096.Idx) (q : dot_S1x512x128_S1x4096x128_S1x512x4096_2_2_1_1_0_0.contr.Idx) :
    (dot_S1x512x128_S1x4096x128_S1x512x4096_2_2_1_1_0_0.lhsIdx i q 1).val = (i 1).val := by
  unfold DotDims.lhsIdx
  rw [dif_neg (show ¬(1 : Fin S1x512x128.rank) ∈ dot_S1x512x128_S1x4096x128_S1x512x4096_2_2_1_1_0_0.lhsBatch by decide),
    dif_pos (show (1 : Fin S1x512x128.rank) ∈ dot_S1x512x128_S1x4096x128_S1x512x4096_2_2_1_1_0_0.lhsNonContracting by decide)]
  rfl
theorem scoreDims_lhs2 (i : S1x512x4096.Idx) (q : dot_S1x512x128_S1x4096x128_S1x512x4096_2_2_1_1_0_0.contr.Idx) :
    (dot_S1x512x128_S1x4096x128_S1x512x4096_2_2_1_1_0_0.lhsIdx i q 2).val = (q ⟨0, by decide⟩).val :=
  dot_S1x512x128_S1x4096x128_S1x512x4096_2_2_1_1_0_0.lhsIdx_val_of_single rfl i q
theorem scoreDims_rhs0 (i : S1x512x4096.Idx) (q : dot_S1x512x128_S1x4096x128_S1x512x4096_2_2_1_1_0_0.contr.Idx) :
    (dot_S1x512x128_S1x4096x128_S1x512x4096_2_2_1_1_0_0.rhsIdx i q 0).val = (i 0).val := by
  unfold DotDims.rhsIdx
  rw [dif_pos (show (0 : Fin S1x4096x128.rank) ∈ dot_S1x512x128_S1x4096x128_S1x512x4096_2_2_1_1_0_0.rhsBatch by decide)]
  rfl
theorem scoreDims_rhs1 (i : S1x512x4096.Idx) (q : dot_S1x512x128_S1x4096x128_S1x512x4096_2_2_1_1_0_0.contr.Idx) :
    (dot_S1x512x128_S1x4096x128_S1x512x4096_2_2_1_1_0_0.rhsIdx i q 1).val = (i 2).val := by
  unfold DotDims.rhsIdx
  rw [dif_neg (show ¬(1 : Fin S1x4096x128.rank) ∈ dot_S1x512x128_S1x4096x128_S1x512x4096_2_2_1_1_0_0.rhsBatch by decide),
    dif_pos (show (1 : Fin S1x4096x128.rank) ∈ dot_S1x512x128_S1x4096x128_S1x512x4096_2_2_1_1_0_0.rhsNonContracting by decide)]
  rfl
theorem scoreDims_rhs2 (i : S1x512x4096.Idx) (q : dot_S1x512x128_S1x4096x128_S1x512x4096_2_2_1_1_0_0.contr.Idx) :
    (dot_S1x512x128_S1x4096x128_S1x512x4096_2_2_1_1_0_0.rhsIdx i q 2).val = (q ⟨0, by decide⟩).val :=
  dot_S1x512x128_S1x4096x128_S1x512x4096_2_2_1_1_0_0.rhsIdx_val_of_single rfl i q

/-- The first product into the zero accumulator, at entry (0, r, s): the sum over h of A (0, r, h) · B (0, s, h). -/
theorem scoreMatmul_apply (A : FVec Ideal S1x512x128 .bf16) (B : FVec Ideal S1x4096x128 .bf16) (r : Fin 512) (s : Fin 4096) :
    matmul dot_S1x512x128_S1x4096x128_S1x512x4096_2_2_1_1_0_0 none A B (constant (F := Ideal) S1x512x4096 .f32 0x00000000#32) (ix3 (0 : Fin 1) r s)
      = ∑ h : Fin 128, A (ix3 (0 : Fin 1) r h) * B (ix3 (0 : Fin 1) s h) := by
  refine (Ideal.matmul_constant_zero_apply dot_S1x512x128_S1x4096x128_S1x512x4096_2_2_1_1_0_0 none A B (ix3 (0 : Fin 1) r s)).trans ?_
  rw [← Equiv.sum_comp (contrEquiv1 dot_S1x512x128_S1x4096x128_S1x512x4096_2_2_1_1_0_0 128 rfl rfl).symm]
  refine Finset.sum_congr rfl fun h _ => ?_
  have hk := contrEquiv1_symm_val dot_S1x512x128_S1x4096x128_S1x512x4096_2_2_1_1_0_0 128 rfl rfl h
  have el : dot_S1x512x128_S1x4096x128_S1x512x4096_2_2_1_1_0_0.lhsIdx (ix3 (0 : Fin 1) r s) ((contrEquiv1 dot_S1x512x128_S1x4096x128_S1x512x4096_2_2_1_1_0_0 128 rfl rfl).symm h) = ix3 (0 : Fin 1) r h :=
    funext fun a => Fin.ext (by
      match a with
      | ⟨0, _⟩ => exact scoreDims_lhs0 _ _
      | ⟨1, _⟩ => exact scoreDims_lhs1 _ _
      | ⟨2, _⟩ => exact (scoreDims_lhs2 _ _).trans hk)
  have er : dot_S1x512x128_S1x4096x128_S1x512x4096_2_2_1_1_0_0.rhsIdx (ix3 (0 : Fin 1) r s) ((contrEquiv1 dot_S1x512x128_S1x4096x128_S1x512x4096_2_2_1_1_0_0 128 rfl rfl).symm h) = ix3 (0 : Fin 1) s h :=
    funext fun a => Fin.ext (by
      match a with
      | ⟨0, _⟩ => exact scoreDims_rhs0 _ _
      | ⟨1, _⟩ => exact scoreDims_rhs1 _ _
      | ⟨2, _⟩ => exact (scoreDims_rhs2 _ _).trans hk)
  rw [el, er]

/-! ## The weighted sum's product: the left operand contracted on its last axis, the right one on its middle axis -/

theorem valueDims_lhs0 (i : S1x512x128.Idx) (q : dot_S1x512x4096_S1x4096x128_S1x512x128_2_1_1_2_0_0.contr.Idx) :
    (dot_S1x512x4096_S1x4096x128_S1x512x128_2_1_1_2_0_0.lhsIdx i q 0).val = (i 0).val := by
  unfold DotDims.lhsIdx
  rw [dif_pos (show (0 : Fin S1x512x4096.rank) ∈ dot_S1x512x4096_S1x4096x128_S1x512x128_2_1_1_2_0_0.lhsBatch by decide)]
  rfl
theorem valueDims_lhs1 (i : S1x512x128.Idx) (q : dot_S1x512x4096_S1x4096x128_S1x512x128_2_1_1_2_0_0.contr.Idx) :
    (dot_S1x512x4096_S1x4096x128_S1x512x128_2_1_1_2_0_0.lhsIdx i q 1).val = (i 1).val := by
  unfold DotDims.lhsIdx
  rw [dif_neg (show ¬(1 : Fin S1x512x4096.rank) ∈ dot_S1x512x4096_S1x4096x128_S1x512x128_2_1_1_2_0_0.lhsBatch by decide),
    dif_pos (show (1 : Fin S1x512x4096.rank) ∈ dot_S1x512x4096_S1x4096x128_S1x512x128_2_1_1_2_0_0.lhsNonContracting by decide)]
  rfl
theorem valueDims_lhs2 (i : S1x512x128.Idx) (q : dot_S1x512x4096_S1x4096x128_S1x512x128_2_1_1_2_0_0.contr.Idx) :
    (dot_S1x512x4096_S1x4096x128_S1x512x128_2_1_1_2_0_0.lhsIdx i q 2).val = (q ⟨0, by decide⟩).val :=
  dot_S1x512x4096_S1x4096x128_S1x512x128_2_1_1_2_0_0.lhsIdx_val_of_single rfl i q
theorem valueDims_rhs0 (i : S1x512x128.Idx) (q : dot_S1x512x4096_S1x4096x128_S1x512x128_2_1_1_2_0_0.contr.Idx) :
    (dot_S1x512x4096_S1x4096x128_S1x512x128_2_1_1_2_0_0.rhsIdx i q 0).val = (i 0).val := by
  unfold DotDims.rhsIdx
  rw [dif_pos (show (0 : Fin S1x4096x128.rank) ∈ dot_S1x512x4096_S1x4096x128_S1x512x128_2_1_1_2_0_0.rhsBatch by decide)]
  rfl
theorem valueDims_rhs1 (i : S1x512x128.Idx) (q : dot_S1x512x4096_S1x4096x128_S1x512x128_2_1_1_2_0_0.contr.Idx) :
    (dot_S1x512x4096_S1x4096x128_S1x512x128_2_1_1_2_0_0.rhsIdx i q 1).val = (q ⟨0, by decide⟩).val :=
  dot_S1x512x4096_S1x4096x128_S1x512x128_2_1_1_2_0_0.rhsIdx_val_of_single rfl i q
theorem valueDims_rhs2 (i : S1x512x128.Idx) (q : dot_S1x512x4096_S1x4096x128_S1x512x128_2_1_1_2_0_0.contr.Idx) :
    (dot_S1x512x4096_S1x4096x128_S1x512x128_2_1_1_2_0_0.rhsIdx i q 2).val = (i 2).val := by
  unfold DotDims.rhsIdx
  rw [dif_neg (show ¬(2 : Fin S1x4096x128.rank) ∈ dot_S1x512x4096_S1x4096x128_S1x512x128_2_1_1_2_0_0.rhsBatch by decide),
    dif_pos (show (2 : Fin S1x4096x128.rank) ∈ dot_S1x512x4096_S1x4096x128_S1x512x128_2_1_1_2_0_0.rhsNonContracting by decide)]
  rfl

/-- The second product into the zero accumulator, at entry (0, r, d): the sum over s of A (0, r, s) · B (0, s, d). -/
theorem valueMatmul_apply (A : FVec Ideal S1x512x4096 .bf16) (B : FVec Ideal S1x4096x128 .bf16) (r : Fin 512) (d : Fin 128) :
    matmul dot_S1x512x4096_S1x4096x128_S1x512x128_2_1_1_2_0_0 none A B (constant (F := Ideal) S1x512x128 .f32 0x00000000#32) (ix3 (0 : Fin 1) r d)
      = ∑ s : Fin 4096, A (ix3 (0 : Fin 1) r s) * B (ix3 (0 : Fin 1) s d) := by
  refine (Ideal.matmul_constant_zero_apply dot_S1x512x4096_S1x4096x128_S1x512x128_2_1_1_2_0_0 none A B (ix3 (0 : Fin 1) r d)).trans ?_
  rw [← Equiv.sum_comp (contrEquiv1 dot_S1x512x4096_S1x4096x128_S1x512x128_2_1_1_2_0_0 4096 rfl rfl).symm]
  refine Finset.sum_congr rfl fun s _ => ?_
  have hk := contrEquiv1_symm_val dot_S1x512x4096_S1x4096x128_S1x512x128_2_1_1_2_0_0 4096 rfl rfl s
  have el : dot_S1x512x4096_S1x4096x128_S1x512x128_2_1_1_2_0_0.lhsIdx (ix3 (0 : Fin 1) r d) ((contrEquiv1 dot_S1x512x4096_S1x4096x128_S1x512x128_2_1_1_2_0_0 4096 rfl rfl).symm s) = ix3 (0 : Fin 1) r s :=
    funext fun a => Fin.ext (by
      match a with
      | ⟨0, _⟩ => exact valueDims_lhs0 _ _
      | ⟨1, _⟩ => exact valueDims_lhs1 _ _
      | ⟨2, _⟩ => exact (valueDims_lhs2 _ _).trans hk)
  have er : dot_S1x512x4096_S1x4096x128_S1x512x128_2_1_1_2_0_0.rhsIdx (ix3 (0 : Fin 1) r d) ((contrEquiv1 dot_S1x512x4096_S1x4096x128_S1x512x128_2_1_1_2_0_0 4096 rfl rfl).symm s) = ix3 (0 : Fin 1) s d :=
    funext fun a => Fin.ext (by
      match a with
      | ⟨0, _⟩ => exact valueDims_rhs0 _ _
      | ⟨1, _⟩ => exact (valueDims_rhs1 _ _).trans hk
      | ⟨2, _⟩ => exact valueDims_rhs2 _ _)
  rw [el, er]

end Cert.Pay

end
-- ==== Proof.LibRank3.lean ====
/-
  Rank-3 arrays read at an index, on the extended reals. A lane sum over the last or over the middle axis of an
  `[a, b, c]` array is the sum of the entries along that axis; a lane maximum over the middle axis is the fold of `max`,
  from the accumulator's value, over the entries along it. A `[c]` vector, or a `[1, c]` row, laid along the last axis as
  `[1, 1, c]` and repeated over the first two axes reads the vector at the last coordinate. An `[a, b, 1]` array with
  its unit axis dropped keeps its entries. General lemmas over any extents.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## Reductions along one axis -/

/-- On the extended reals a lane sum over the LAST axis of an `[a, b, c]` array is, at `(i, j)`, the sum of the entries
    `(i, j, ·)`. -/
theorem multiReduction_add_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32) (hacc : acc = FKind.add.neutral .f32 hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- On the extended reals a lane sum over the MIDDLE axis of an `[a, b, c]` array is, at `(i, k)`, the sum of the entries
    `(i, ·, k)`. -/
theorem multiReduction_add_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32) (hacc : acc = FKind.add.neutral .f32 hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- On the extended reals a lane maximum over the MIDDLE axis of an `[a, b, c]` array is, at `(i, k)`, the fold of `max`
    from the accumulator's value over the entries `(i, ·, k)`. -/
theorem multiReduction_maximumf_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32)
    (hacc : acc = FKind.maximumf.neutral .f32 hφ) (i : Fin a) (k : Fin c) :
    multiReduction .maximumf [1] ⟨2, ![a, c]⟩ src acc h hφ hacc (ix2 i k)
      = (Finset.univ : Finset (Fin b)).fold max (Ideal.ofBits .f32 acc) (fun j => src (ix3 i j k)) := by
  refine (Ideal.multiReduction_maximumf_single src acc h hφ hacc (ix2 i k)).trans ?_
  refine congrArg (fun f => Finset.fold max (Ideal.ofBits .f32 acc) f (Finset.univ : Finset (Fin b))) ?_
  exact funext fun j => congrArg src (funext fun ax => Fin.ext (by
    match ax with
    | ⟨0, _⟩ => rfl
    | ⟨1, _⟩ => rfl
    | ⟨2, _⟩ => rfl))

/-! ## A vector along the last axis, repeated over the first two -/

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector cast to `[1, 1, c]` reads, at `(u, w, k)`, the vector at `k`. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_one, Shape.rowMajor_val_three]
    show k.val = (u.val * 1 + w.val) * c + k.val
    rw [hu, hw]; simp)

/-- A `[1, c]` row cast to `[1, 1, c]` reads, at `(u, w, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u w : Fin 1) (k : Fin c) :
    shapeCast ⟨3, ![1, 1, c]⟩ x h (ix3 u w k) = x (ix2 (0 : Fin 1) k) :=
  shapeCast_apply x h _ _ (by
    have hu : u.val = 0 := by omega
    have hw : w.val = 0 := by omega
    rw [Shape.rowMajor_val_two, Shape.rowMajor_val_three]
    show (0 : ℕ) * c + k.val = (u.val * 1 + w.val) * c + k.val
    rw [hu, hw])

/-- The two together for a vector: laid along the last axis and repeated, it reads the vector at the last coordinate. -/
theorem bcast_cast_c {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

/-- The two together for a one-row matrix. -/
theorem bcast_cast_1c {a b c : ℕ} (x : (⟨2, ![1, c]⟩ : Shape).Idx → α)
    (hc : (⟨2, ![1, c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix2 (0 : Fin 1) k) :=
  (broadcastTo_11c_abc_apply _ hb i j k).trans (shapeCast_1c_11c_apply x hc 0 0 k)

/-! ## A trailing unit axis dropped -/

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

end Cert.LibRank3

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.AttnLane.lean ====
/-
  The attention kernel's row operations read at an entry, on the extended reals.

  A lane maximum over the last axis of an [a, b, c] array is, at (i, j), the fold of `max` from the accumulator's value
  over the entries (i, j, ·); the accumulator's word here is that of −∞, the bottom of the extended reals. The kernel keeps
  each row's maximum (and each row's sum) as a [1, 512] matrix, lays it as a [1, 512, 1] column and repeats it along the
  last axis: read at (0, r, ·) that is the row's maximum (sum). So the unnormalized weight exp (x − max x) of entry s of row
  r, and the sum of row r's weights, read off as the specification writes them.
-/
import proofs.«126636_j16612933501467_2_alg».proof.Proof.Spec
import proofs.«126636_j16612933501467_2_alg».proof.Proof.LibRank3
import proofs.«126636_j16612933501467_2_alg».proof.Proof.LibPairAxes
import Idealize.ShloMosaic.Lib.ValueIdx
import Idealize.ShloMosaic.Lib.Pipeline.Value
import Idealize.ShloMosaic.PureOps.Ideal.Laws

noncomputable section

open scoped BigOperators

namespace Cert.Pay

open Idealize.ShloMosaic Idealize.ShloMosaic.ValueIdx

/-- On the extended reals a lane maximum over the LAST axis of an `[a, b, c]` array is, at `(i, j)`, the fold of `max`
    from the accumulator's value over the entries `(i, j, ·)`. -/
theorem multiReduction_maximumf_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) ?_
  exact funext fun k => congrArg src (funext fun ax => Fin.ext (by
    match ax with
    | ⟨0, _⟩ => rfl
    | ⟨1, _⟩ => rfl
    | ⟨2, _⟩ => rfl))

/-- The word 0xFF800000 is −∞: the bottom of the extended reals. -/
theorem ofBits_negInf_f32 : Ideal.ofBits .f32 0xFF800000#32 = (⊥ : EReal) := by
  simp [Ideal.ofBits, Ideal.ieee]

/-- The unnormalized weight of entry `s` of row `r`: the exponential of the entry minus the row's maximum, the maximum
    taken along the last axis from −∞, kept as a column and repeated along the row. `S` names the row's entries. -/
theorem weight_apply {b c : ℕ} (X : FVec Ideal ⟨3, ![1, b, c]⟩ .f32)
    (hr : (⟨3, ![1, b, c]⟩ : Shape).Reduces [2] ⟨2, ![1, b]⟩) (hφ : FKind.Formats .f32)
    (hacc : (0xFF800000#32 : BitVec (FTy.bits .f32)) = FKind.maximumf.neutral .f32 hφ)
    (hc : (⟨2, ![1, b]⟩ : Shape).ShapeCasts ⟨3, ![1, b, 1]⟩) (hb : (⟨3, ![1, b, 1]⟩ : Shape).Broadcasts ⟨3, ![1, b, c]⟩)
    (r : Fin b) (S : Fin c → EReal) (hS : ∀ t, X (ix3 (0 : Fin 1) r t) = S t) (s : Fin c) :
    exp (subf X (broadcastTo ⟨3, ![1, b, c]⟩
        (shapeCast ⟨3, ![1, b, 1]⟩ (multiReduction .maximumf [2] ⟨2, ![1, b]⟩ X 0xFF800000#32 hr hφ hacc) hc) hb))
        (ix3 (0 : Fin 1) r s)
      = Cert.Attn.weight S s := by
  show Ideal.exp (X (ix3 (0 : Fin 1) r s) - broadcastTo ⟨3, ![1, b, c]⟩
        (shapeCast ⟨3, ![1, b, 1]⟩ (multiReduction .maximumf [2] ⟨2, ![1, b]⟩ X 0xFF800000#32 hr hφ hacc) hc) hb
        (ix3 (0 : Fin 1) r s)) = _
  rw [Cert.LibPairAxes.bcast_cast_ab1, multiReduction_maximumf_last, ofBits_negInf_f32, hS s,
    (funext hS : (fun t => X (ix3 (0 : Fin 1) r t)) = S)]
  rfl

/-- The sum of row `r`'s entries, taken along the last axis from zero, kept as a column and repeated along a row of any
    length: at `(0, r, d)` it is the sum over `s` of the entries `(0, r, s)`. -/
theorem rowSum_apply {b c e : ℕ} (E : FVec Ideal ⟨3, ![1, b, c]⟩ .f32)
    (hr : (⟨3, ![1, b, c]⟩ : Shape).Reduces [2] ⟨2, ![1, b]⟩) (hφ : FKind.Formats .f32)
    (hacc : (0x00000000#32 : BitVec (FTy.bits .f32)) = FKind.add.neutral .f32 hφ)
    (hc : (⟨2, ![1, b]⟩ : Shape).ShapeCasts ⟨3, ![1, b, 1]⟩) (hb : (⟨3, ![1, b, 1]⟩ : Shape).Broadcasts ⟨3, ![1, b, e]⟩)
    (r : Fin b) (d : Fin e) :
    broadcastTo ⟨3, ![1, b, e]⟩
        (shapeCast ⟨3, ![1, b, 1]⟩ (multiReduction .add [2] ⟨2, ![1, b]⟩ E 0x00000000#32 hr hφ hacc) hc) hb
        (ix3 (0 : Fin 1) r d)
      = ∑ s : Fin c, E (ix3 (0 : Fin 1) r s) := by
  rw [Cert.LibPairAxes.bcast_cast_ab1, Cert.LibRank3.multiReduction_add_last]

end Cert.Pay

end
-- ==== Proof.AttnPay.lean ====
/-
  The attention kernel's stored block read at an entry, on the extended reals. For one block of 512 query rows against
  all 4096 key rows the body forms the scores s = (q · kᵀ) · (1/32), each row's maximum m, the weights p = exp (s − m),
  each row's sum l of weights, and stores (p · v) / l. A change of float format and a cast to the same shape are the
  identity. So entry (0, r, d) of what it stores is the specification's row formula — the weighted sum of the values'
  column d divided once by the sum of the weights — at the scores of query row r.
-/
import proofs.«126636_j16612933501467_2_alg».proof.Proof.Gen.KernelIdeal.Skeleton
import proofs.«126636_j16612933501467_2_alg».proof.Proof.Spec
import proofs.«126636_j16612933501467_2_alg».proof.Proof.AttnMatmul
import proofs.«126636_j16612933501467_2_alg».proof.Proof.AttnLane
import Idealize.ShloMosaic.Lib.ValueIdx
import Idealize.ShloMosaic.Lib.Pipeline.Value
import Idealize.ShloMosaic.PureOps.Ideal.Laws

noncomputable section

open scoped BigOperators

namespace Cert.Pay

open Idealize.ShloMosaic Idealize.ShloMosaic.ValueIdx Cert.KernelIdeal

/-- The scaled score at (0, r, s): the sum over h of the query block at (0, r, h) times the key block at (0, s, h), times
    the scale. -/
theorem score_apply (q : Vec Ideal S1x512x128 .f32) (k : Vec Ideal S1x4096x128 .f32)
    (h1 : S1x512x128.ShapeCasts S1x512x128) (h2 : S1x4096x128.ShapeCasts S1x4096x128)
    (hbf : FTy.bits .bf16 < FTy.bits .f32) (r : Fin 512) (s : Fin 4096) :
    mulf (matmul dot_S1x512x128_S1x4096x128_S1x512x4096_2_2_1_1_0_0 none
          (truncf .bf16 (shapeCast S1x512x128 q h1) hbf) (truncf .bf16 (shapeCast S1x4096x128 k h2) hbf)
          (constant (F := Ideal) S1x512x4096 .f32 0x00000000#32))
        (broadcast S1x512x4096 (Scalar.ofBits (F := Ideal) .f32 0x3D000000#32)) (ix3 (0 : Fin 1) r s)
      = (∑ h : Fin 128, q (ix3 (0 : Fin 1) r h) * k (ix3 (0 : Fin 1) s h)) * Cert.Attn.scale := by
  rw [mulf_apply, scoreMatmul_apply, broadcast_apply]
  simp only [truncf_apply, shapeCast_self]
  rfl

/-- The row formula from its parts: weights `E` that are the specification's weights of the scores `S`, and values `W`
    that are `V`. -/
theorem attnRow_eq {n : ℕ} (S V E W : Fin n → EReal) (hE : ∀ j, E j = Cert.Attn.weight S j) (hW : ∀ j, W j = V j) :
    Ideal.div (∑ j, E j * W j) (∑ j, E j) = Cert.Attn.attnRow S V := by
  rw [funext hE, funext hW]
  rfl

/-- From an array `X` of scores whose row `r` is `S`: the weights exp (X − rowmax X), their product with the values
    into zero, divided by the repeated row sums of the weights, read at (0, r, d), is the row formula at `S` and column
    `d` of the values. -/
theorem attnBlock_apply (X : FVec Ideal S1x512x4096 .f32) (Vb : FVec Ideal S1x4096x128 .bf16)
    (hr : S1x512x4096.Reduces [2] S1x512) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S1x512.ShapeCasts S1x512x1) (hb : S1x512x1.Broadcasts S1x512x4096) (hb' : S1x512x1.Broadcasts S1x512x128)
    (hbf : FTy.bits .bf16 < FTy.bits .f32) (r : Fin 512) (d : Fin 128) (S : Fin 4096 → EReal)
    (hS : ∀ t, X (ix3 (0 : Fin 1) r t) = S t) :
    divf (matmul dot_S1x512x4096_S1x4096x128_S1x512x128_2_1_1_2_0_0 none
          (truncf .bf16 (exp (subf X (broadcastTo S1x512x4096
            (shapeCast S1x512x1 (multiReduction .maximumf [2] S1x512 X 0xFF800000#32 hr hφ hmax) hc) hb))) hbf)
          Vb (constant (F := Ideal) S1x512x128 .f32 0x00000000#32))
        (broadcastTo S1x512x128 (shapeCast S1x512x1 (multiReduction .add [2] S1x512
          (exp (subf X (broadcastTo S1x512x4096
            (shapeCast S1x512x1 (multiReduction .maximumf [2] S1x512 X 0xFF800000#32 hr hφ hmax) hc) hb)))
          0x00000000#32 hr hφ hadd) hc) hb')
        (ix3 (0 : Fin 1) r d)
      = Cert.Attn.attnRow S (fun s => Vb (ix3 (0 : Fin 1) s d)) := by
  rw [divf_apply, valueMatmul_apply, rowSum_apply]
  refine attnRow_eq _ _ _ _ (fun s => ?_) (fun s => rfl)
  rw [truncf_apply]
  exact weight_apply X hr hφ hmax hc hb r S hS s

/-- Entry (0, r, d) of the block the attention kernel stores: the row formula at the scaled scores of query row r
    against every key row, and column d of the values. -/
theorem k1_pay1_apply (q : Vec Ideal S1x512x128 .f32) (k v : Vec Ideal S1x4096x128 .f32) (r : Fin 512) (d : Fin 128) :
    Cert.KernelIdeal.Gen.k1_pay1 (F := Ideal) q k v (ix3 (0 : Fin 1) r d)
      = Cert.Attn.attnRow
          (fun s : Fin 4096 => (∑ h : Fin 128, q (ix3 (0 : Fin 1) r h) * k (ix3 (0 : Fin 1) s h)) * Cert.Attn.scale)
          (fun s : Fin 4096 => v (ix3 (0 : Fin 1) s d)) := by
  unfold Cert.KernelIdeal.Gen.k1_pay1
  refine (attnBlock_apply _ _ _ _ _ _ _ _ _ _ r d _ (fun t => score_apply q k _ _ _ r t)).trans ?_
  simp only [truncf_apply, shapeCast_self]

end Cert.Pay

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.ConcatCols.lean ====
/-
  Three [1024, 128] matrices laid side by side along the columns into one [1024, 384] matrix, read at a column of each
  third: columns 0 to 127 are the first matrix, columns 128 to 255 the second, columns 256 to 383 the third, each at the
  same row. For any type of entries.
-/
import proofs.«126636_j16612933501467_2_alg».proof.KernelIdeal
import proofs.«126636_j16612933501467_2_alg».proof.Proof.LibConcatSame
import Idealize.ShloMosaic.Lib.ValueIdx
import Idealize.ShloMosaic.Lib.Pipeline.Value

noncomputable section

namespace Cert.Pay

open Idealize.ShloMosaic Idealize.ShloMosaic.ValueIdx Cert.KernelIdeal

variable {α : Type}

/-- The concatenation at row `k` and column `128 n + h` is piece `n` at `(k, h)`. -/
theorem concat_piece (a b c : S1024x128.Idx → α)
    (hc : Shape.Concatenates [S1024x128, S1024x128, S1024x128] S1024x384 1) (k : Fin 1024) (h : Fin 128)
    (n : Fin 3) (col : Fin 384) (hcol : col.val = 128 * n.val + h.val) :
    concatenate S1024x384 1 [⟨S1024x128, a⟩, ⟨S1024x128, b⟩, ⟨S1024x128, c⟩] hc (ix2 k col)
      = (![a, b, c] : Fin 3 → S1024x128.Idx → α) n (ix2 k h) := by
  have hh := h.isLt
  refine Cert.LibConcatSame.concat3_apply (t := S1024x384) (s₁ := S1024x128) 1 a b c hc rfl 128 rfl (ix2 k col) n ?_
    (ix2 k h) ?_ ?_
  · show col.val / 128 = n.val
    rw [hcol]; omega
  · show h.val = col.val % 128
    rw [hcol]; omega
  · intro ax hax
    match ax with
    | ⟨0, _⟩ => rfl
    | ⟨1, _⟩ => exact absurd rfl hax

/-- Columns 0 to 127: the first matrix. -/
theorem concat_q (a b c : S1024x128.Idx → α)
    (hc : Shape.Concatenates [S1024x128, S1024x128, S1024x128] S1024x384 1) (k : Fin 1024) (h : Fin 128) :
    concatenate S1024x384 1 [⟨S1024x128, a⟩, ⟨S1024x128, b⟩, ⟨S1024x128, c⟩] hc
        (ix2 k (⟨h.val, Nat.lt_of_lt_of_le h.isLt (by decide)⟩ : Fin 384))
      = a (ix2 k h) :=
  concat_piece a b c hc k h 0 _ (by show h.val = 128 * 0 + h.val; omega)

/-- Columns 128 to 255: the second matrix. -/
theorem concat_k (a b c : S1024x128.Idx → α)
    (hc : Shape.Concatenates [S1024x128, S1024x128, S1024x128] S1024x384 1) (k : Fin 1024) (h : Fin 128) :
    concatenate S1024x384 1 [⟨S1024x128, a⟩, ⟨S1024x128, b⟩, ⟨S1024x128, c⟩] hc
        (ix2 k (⟨128 + h.val, by have := h.isLt; omega⟩ : Fin 384))
      = b (ix2 k h) :=
  concat_piece a b c hc k h 1 _ (by show 128 + h.val = 128 * 1 + h.val; omega)

/-- Columns 256 to 383: the third matrix. -/
theorem concat_v (a b c : S1024x128.Idx → α)
    (hc : Shape.Concatenates [S1024x128, S1024x128, S1024x128] S1024x384 1) (k : Fin 1024) (h : Fin 128) :
    concatenate S1024x384 1 [⟨S1024x128, a⟩, ⟨S1024x128, b⟩, ⟨S1024x128, c⟩] hc
        (ix2 k (⟨256 + h.val, by have := h.isLt; omega⟩ : Fin 384))
      = c (ix2 k h) :=
  concat_piece a b c hc k h 2 _ (by show 256 + h.val = 128 * 2 + h.val; omega)

end Cert.Pay

end
-- ==== Proof.KI.Bridge.lean ====
/-
  The result of the kernel's program as a function of its arguments: the attention call's array after its last
  write-back is the attention of the projections' array, that is the projection call's array after its last
  write-back, the product of the input with the concatenated weights; and the attention of those projections is the
  specification's `out`, column third by column third.
-/
import proofs.«126636_j16612933501467_2_alg».proof.Proof.KI.Val0
import proofs.«126636_j16612933501467_2_alg».proof.Proof.KI.Val1
import proofs.«126636_j16612933501467_2_alg».proof.Proof.KI.Host
import proofs.«126636_j16612933501467_2_alg».proof.Proof.ProjPay
import proofs.«126636_j16612933501467_2_alg».proof.Proof.AttnPay
import proofs.«126636_j16612933501467_2_alg».proof.Proof.ConcatCols
import proofs.«126636_j16612933501467_2_alg».proof.Proof.Spec

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The two bodies' stored values at an entry. -/
theorem pay0 : Pay0 := fun x0 x1 r j => Cert.Pay.k0_pay1_apply x0 x1 r j
theorem pay1 : Pay1 := fun q k v r d => Cert.Pay.k1_pay1_apply q k v r d

theorem ix3_at0 {n0 n1 n2 : Nat} (a : Fin n0) (b : Fin n1) (c : Fin n2) : (ix3 a b c) 0 = a := rfl
theorem ix3_at1 {n0 n1 n2 : Nat} (a : Fin n0) (b : Fin n1) (c : Fin n2) : (ix3 a b c) 1 = b := rfl
theorem ix3_at2 {n0 n1 n2 : Nat} (a : Fin n0) (b : Fin n1) (c : Fin n2) : (ix3 a b c) 2 = c := rfl

/-- The attention of the projections by [Wq | Wk | Wv] is the specification: columns 0–127 of the projections are
    x·Wq, columns 128–255 x·Wk, columns 256–383 x·Wv. -/
theorem attn_proj (x : S4x4096x1024.Idx → EReal) (wk wq wv : S1024x128.Idx → EReal)
    (hc : Shape.Concatenates [S1024x128, S1024x128, S1024x128] S1024x384 1) :
    attnArr (projArr x (concatenate S1024x384 1 [⟨S1024x128, wq⟩, ⟨S1024x128, wk⟩, ⟨S1024x128, wv⟩] hc))
      = Cert.Attn.out x wk wq wv := by
  funext i
  obtain ⟨b, t, d, rfl⟩ : ∃ (b : Fin 4) (t : Fin 4096) (d : Fin 128), i = ix3 b t d := ⟨i 0, i 1, i 2, eq_ix3 i⟩
  unfold attnArr projArr Cert.Attn.out Cert.Attn.score Cert.Attn.proj
  simp only [ix3_at0, ix3_at1, ix3_at2, qcol, kcol, vcol, Cert.Pay.concat_q, Cert.Pay.concat_k, Cert.Pay.concat_v]

variable (m : (ℓ : Loc nD τ sig) → Buf (Elt Ideal) ℓ)

/-- THE KERNEL'S RESULT as a function of the launch memory's arguments. -/
theorem kernel_out (c : Dev nD) :
    ((dat1 (Hand.V2 m) c).arrAt 3 cfg1.N : S4x4096x128.Idx → EReal)
      = Cert.Attn.out (m ((c : Thread nD τ).loc main_arg0)) (m ((c : Thread nD τ).loc main_arg1))
          (m ((c : Thread nD τ).loc main_arg2)) (m ((c : Thread nD τ).loc main_arg3)) := by
  have h2 : (Hand.V2 m c main_v1 : S4x4096x384.Idx → EReal) = projArr (Hand.V1 m c main_arg0) (Hand.V1 m c main_v0) :=
    (W2_arr m c 2).trans (final0 (Hand.V1 m) pay0 c)
  refine (final1 (Hand.V2 m) pay1 c).trans ((congrArg attnArr h2).trans ?_)
  rw [V1_arg0, V1_v0]
  exact attn_proj _ _ _ _ _

end Cert.KernelIdeal.HandValue

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.RefValue.lean ====
/-
  The reference program's result, read operation by operation at an index and identified with the specification's
  function in the reference's order of operations. The three projections are sums over the 1024 input features; the
  scores are sums over the 128 head features times the literal 1/32; the maximum along the key axis, taken from the
  pattern of −∞ and then joined with a broadcast −∞, is the fold of `max` from ⊥ over a row's scores; the exponentials
  of the differences are the weights; their sum along the key axis from the pattern of zero is the row's denominator;
  every weight is divided by it, and the last contraction sums the products with the value projection over the keys.
  Nothing here needs the entries to be finite: both sides are the same expression of extended reals.
-/
import proofs.«126636_j16612933501467_2_alg».proof.Proof.Gen.ReferenceIdeal.Read
import proofs.«126636_j16612933501467_2_alg».proof.Proof.Spec
import proofs.«126636_j16612933501467_2_alg».proof.Proof.LibRowMax

noncomputable section

open scoped BigOperators

namespace Cert.RefValue

open Cert.ReferenceIdeal Cert.ReferenceIdeal.Gen Cert.ReferenceIdeal.Read Idealize.ShloMosaic Idealize.ShloMosaic.ValueIdx
  Cert.Attn

/-- The input array's and a weight matrix's contents at the ideal values. -/
abbrev XArr : Type := (⟨S4x4096x1024, .f32⟩ : BufTy).Contents (Elt Ideal)
abbrev WArr : Type := (⟨S1024x128, .f32⟩ : BufTy).Contents (Elt Ideal)

/-- The first projection (of the second argument) at (b, t, h). -/
theorem v0_at (x : XArr) (w : WArr) (b : Fin 4) (t : Fin 4096) (h : Fin 128) :
    val_main_v0 (F := Ideal) x w (ix3 b t h) = proj x w b t h := by
  rw [val_main_v0_apply, proj]
  refine Finset.sum_congr rfl fun c _ => ?_
  rw [show lidx_main_v0 (ix3 b t h) c = ix3 b t c from
        funext fun a => Fin.ext (by match a with | ⟨0, _⟩ => rfl | ⟨1, _⟩ => rfl | ⟨2, _⟩ => rfl),
      show ridx_main_v0 (ix3 b t h) c = ix2 c h from
        funext fun a => Fin.ext (by match a with | ⟨0, _⟩ => rfl | ⟨1, _⟩ => rfl)]

/-- The second projection (of the third argument) at (b, t, h). -/
theorem v1_at (x : XArr) (w : WArr) (b : Fin 4) (t : Fin 4096) (h : Fin 128) :
    val_main_v1 (F := Ideal) x w (ix3 b t h) = proj x w b t h := by
  rw [val_main_v1_apply, proj]
  refine Finset.sum_congr rfl fun c _ => ?_
  rw [show lidx_main_v1 (ix3 b t h) c = ix3 b t c from
        funext fun a => Fin.ext (by match a with | ⟨0, _⟩ => rfl | ⟨1, _⟩ => rfl | ⟨2, _⟩ => rfl),
      show ridx_main_v1 (ix3 b t h) c = ix2 c h from
        funext fun a => Fin.ext (by match a with | ⟨0, _⟩ => rfl | ⟨1, _⟩ => rfl)]

/-- The third projection (of the fourth argument) at (b, t, h). -/
theorem v2_at (x : XArr) (w : WArr) (b : Fin 4) (t : Fin 4096) (h : Fin 128) :
    val_main_v2 (F := Ideal) x w (ix3 b t h) = proj x w b t h := by
  rw [val_main_v2_apply, proj]
  refine Finset.sum_congr rfl fun c _ => ?_
  rw [show lidx_main_v2 (ix3 b t h) c = ix3 b t c from
        funext fun a => Fin.ext (by match a with | ⟨0, _⟩ => rfl | ⟨1, _⟩ => rfl | ⟨2, _⟩ => rfl),
      show ridx_main_v2 (ix3 b t h) c = ix2 c h from
        funext fun a => Fin.ext (by match a with | ⟨0, _⟩ => rfl | ⟨1, _⟩ => rfl)]

/-- The scaled scores at (b, t, s): query row t of the third argument's projection against key row s of the second's. -/
theorem v5_at (x : XArr) (wk wq : WArr) (b : Fin 4) (t s : Fin 4096) :
    val_main_v5 (F := Ideal) x wk wq (ix3 b t s) = score x wq wk b t s := by
  rw [val_main_v5_apply, val_main_v4_apply, val_main_cst_apply, val_main_v3_apply, score, scale]
  refine congrArg (· * Ideal.ofBits .f32 0x3D000000#32) (Finset.sum_congr rfl fun h _ => ?_)
  rw [show lidx_main_v3 (ix3 b t s) h = ix3 b t h from
        funext fun a => Fin.ext (by match a with | ⟨0, _⟩ => rfl | ⟨1, _⟩ => rfl | ⟨2, _⟩ => rfl),
      show ridx_main_v3 (ix3 b t s) h = ix3 b s h from
        funext fun a => Fin.ext (by match a with | ⟨0, _⟩ => rfl | ⟨1, _⟩ => rfl | ⟨2, _⟩ => rfl),
      v1_at, v0_at]

/-- The pattern of −∞ is the bottom of the extended reals. -/
theorem neg_inf_eq : Ideal.ofBits .f32 0xFF800000#32 = ⊥ := by simp [Ideal.ofBits, Ideal.ieee]

/-- The row maximum at (b, t): the maximum along the key axis from −∞, joined with −∞. -/
theorem v8_at (x : XArr) (wk wq : WArr) (b : Fin 4) (t : Fin 4096) :
    val_main_v8 (F := Ideal) x wk wq (ix2 b t) = rowMax (fun s => score x wq wk b t s) := by
  rw [val_main_v8_apply, val_main_v7_apply, val_main_cst_1_apply]
  unfold val_main_v6
  rw [LibRowMax.hostReduce_maximumf_single (val_main_v5 (F := Ideal) x wk wq) (val_main_cst_0 (F := Ideal))
        reducesTo_S4x4096x4096_S4x4096_d2 (by decide) h_S_ (ix2 b t), val_main_cst_0_apply]
  show max (Ideal.ofBits .f32 0xFF800000#32) (Finset.univ.fold max (Ideal.ofBits .f32 0xFF800000#32) _) = _
  rw [neg_inf_eq, max_eq_right bot_le, rowMax]
  refine congrArg (fun f => (Finset.univ : Finset (Fin 4096)).fold max ⊥ f) (funext fun s => ?_)
  refine (congrArg (val_main_v5 (F := Ideal) x wk wq) (funext fun a => Fin.ext ?_)).trans (v5_at x wk wq b t s)
  match a with
  | ⟨0, _⟩ => rfl
  | ⟨1, _⟩ => rfl
  | ⟨2, _⟩ => rfl

/-- The weights at (b, t, s). -/
theorem v12_at (x : XArr) (wk wq : WArr) (b : Fin 4) (t s : Fin 4096) :
    val_main_v12 (F := Ideal) x wk wq (ix3 b t s) = weight (fun s => score x wq wk b t s) s := by
  rw [val_main_v12_apply, val_main_v11_apply, val_main_v10_apply, val_main_v9_apply, v5_at,
    show idx_main_v9 (idx_main_v10 (ix3 b t s)) = ix2 b t from
      funext fun a => Fin.ext (by match a with | ⟨0, _⟩ => rfl | ⟨1, _⟩ => rfl),
    v8_at, weight]
  rfl

/-- The denominators at (b, t): the sum of the row's weights from the pattern of zero. -/
theorem v13_at (x : XArr) (wk wq : WArr) (b : Fin 4) (t : Fin 4096) :
    val_main_v13 (F := Ideal) x wk wq (ix2 b t) = denom (fun s => score x wq wk b t s) := by
  rw [val_main_v13_apply, val_main_cst_2_apply, denom]
  show Ideal.ofBits .f32 0x00000000#32 + _ = _
  rw [Ideal.ofBits_zero_f32, zero_add]
  refine Finset.sum_congr rfl fun s _ => ?_
  rw [show idx_main_v13 (ix2 b t) s = ix3 b t s from
        funext fun a => Fin.ext (by match a with | ⟨0, _⟩ => rfl | ⟨1, _⟩ => rfl | ⟨2, _⟩ => rfl), v12_at]

/-- The normalized weights at (b, t, s). -/
theorem v16_at (x : XArr) (wk wq : WArr) (b : Fin 4) (t s : Fin 4096) :
    val_main_v16 (F := Ideal) x wk wq (ix3 b t s)
      = Ideal.div (weight (fun s => score x wq wk b t s) s) (denom (fun s => score x wq wk b t s)) := by
  rw [val_main_v16_apply, val_main_v15_apply, val_main_v14_apply, v12_at,
    show idx_main_v14 (idx_main_v15 (ix3 b t s)) = ix2 b t from
      funext fun a => Fin.ext (by match a with | ⟨0, _⟩ => rfl | ⟨1, _⟩ => rfl),
    v13_at]
  rfl

/-- The reference's result is the specification's function in the reference's order of operations; the arguments in the
    program's order: the input, then the key, query and value matrices. -/
theorem ref_eq_outRef (x : XArr) (wk wq wv : WArr) :
    val_main_v17 (F := Ideal) x wk wq wv = outRef x wk wq wv := by
  funext i
  obtain ⟨b, t, h, rfl⟩ : ∃ (b : Fin 4) (t : Fin 4096) (h : Fin 128), i = ix3 b t h := ⟨i 0, i 1, i 2, eq_ix3 i⟩
  rw [val_main_v17_apply, outRef, attnRowRef]
  refine Finset.sum_congr rfl fun s _ => ?_
  rw [show lidx_main_v17 (ix3 b t h) s = ix3 b t s from
        funext fun a => Fin.ext (by match a with | ⟨0, _⟩ => rfl | ⟨1, _⟩ => rfl | ⟨2, _⟩ => rfl),
      show ridx_main_v17 (ix3 b t h) s = ix3 b s h from
        funext fun a => Fin.ext (by match a with | ⟨0, _⟩ => rfl | ⟨1, _⟩ => rfl | ⟨2, _⟩ => rfl),
      v16_at, v2_at]

end Cert.RefValue

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.Softmax.lean ====
/-
  The law between the two orders of a softmax-weighted sum. One order divides every weight e^(s j − max s) by the sum
  of the weights and then sums the products with the values; the other sums the products first and divides once. On
  the extended reals these differ at the infinities, so the law is stated for rows whose scores and values are real
  numbers. Then the largest score of a nonempty row is one of the scores, hence real; every weight is the exponential
  of a real, hence a positive real; the sum of the weights is a positive real D; dividing by D is multiplying by the
  real 1/D; and over the reals Σ_j (w j · (1/D)) · v j = (Σ_j w j · v j) · (1/D).
  From the row law follows the equality of the two whole results on real arguments: a projection is a finite sum of
  products of reals, a score is such a sum times the real 1/32.
-/
import proofs.«126636_j16612933501467_2_alg».proof.Proof.Spec
import proofs.«126636_j16612933501467_2_alg».proof.Proof.LibRealLaw

noncomputable section

open scoped BigOperators

namespace Cert.Attn

open Idealize.ShloMosaic Idealize.ShloMosaic.ValueIdx Cert.Attn.RealLaw

/-- The largest of a nonempty row of real numbers is one of them, hence a real number. -/
theorem rowMax_coe {n : ℕ} (hn : 0 < n) (s' : Fin n → ℝ) :
    ∃ μ : ℝ, rowMax (fun j => ((s' j : ℝ) : EReal)) = (μ : EReal) := by
  haveI : Nonempty (Fin n) := ⟨⟨0, hn⟩⟩
  have hsup : ∀ (t : Finset (Fin n)) (f : Fin n → EReal), t.fold max ⊥ f = t.sup f := by
    intro t f
    classical
    induction t using Finset.induction_on with
    | empty => simp
    | insert a t ha ih => rw [Finset.fold_insert ha, Finset.sup_insert, ih]
  obtain ⟨j, -, hj⟩ :=
    Finset.exists_mem_eq_sup Finset.univ Finset.univ_nonempty (fun j : Fin n => ((s' j : ℝ) : EReal))
  exact ⟨s' j, by rw [rowMax, hsup, hj]⟩

/-- On a nonempty row of real scores and real values, dividing every weight by the sum of the weights before the
    weighted sum gives the same number as dividing the weighted sum once. -/
theorem attnRowRef_eq_attnRow {n : ℕ} (hn : 0 < n) (s v : Fin n → EReal)
    (hs : ∀ j, ∃ r : ℝ, s j = (r : EReal)) (hv : ∀ j, ∃ r : ℝ, v j = (r : EReal)) :
    attnRowRef s v = attnRow s v := by
  choose s' hs' using hs
  choose v' hv' using hv
  obtain rfl : s = fun j => ((s' j : ℝ) : EReal) := funext hs'
  obtain rfl : v = fun j => ((v' j : ℝ) : EReal) := funext hv'
  obtain ⟨μ, hμ⟩ := rowMax_coe hn s'
  have hw : ∀ j, weight (fun j => ((s' j : ℝ) : EReal)) j = ((Real.exp (s' j - μ) : ℝ) : EReal) := by
    intro j
    rw [weight, hμ, ← EReal.coe_sub, Ideal.exp_coe]
  have hd : denom (fun j => ((s' j : ℝ) : EReal)) = ((∑ j, Real.exp (s' j - μ) : ℝ) : EReal) := by
    rw [denom, coe_sum]
    exact Finset.sum_congr rfl fun j _ => hw j
  have hpos : (∑ j, Real.exp (s' j - μ) : ℝ) ≠ 0 := by
    haveI : Nonempty (Fin n) := ⟨⟨0, hn⟩⟩
    exact (Finset.sum_pos (fun j _ => Real.exp_pos _) Finset.univ_nonempty).ne'
  rw [attnRowRef, attnRow, hd]
  simp only [hw, Ideal.div_coe hpos, ← EReal.coe_mul, ← coe_sum]
  refine congrArg _ ?_
  rw [Finset.sum_mul]
  refine Finset.sum_congr rfl fun j _ => ?_
  ring

/-- The scale, the single-precision pattern `0x3D000000` (sign `0`, exponent field `122`, significand field `0`),
    denotes `2 ^ (122 - 127) = 1 / 32`. -/
theorem scale_eq : scale = (((1 / 32 : ℝ)) : EReal) := by
  rw [scale]
  simp [Ideal.ofBits, Ideal.ieee, -EReal.coe_mul]; norm_num

/-- A projection of a real input by a real matrix has real entries. -/
theorem proj_real (x : SX.Idx → EReal) (w : SW.Idx → EReal) (hx : ∀ i, ∃ r : ℝ, x i = (r : EReal))
    (hw : ∀ i, ∃ r : ℝ, w i = (r : EReal)) (b : Fin 4) (t : Fin 4096) (h : Fin 128) :
    ∃ r : ℝ, proj x w b t h = (r : EReal) :=
  isReal_sum_mul (fun c => hx (ix3 b t c)) (fun c => hw (ix2 c h))

/-- A scaled score of real arguments is real. -/
theorem score_real (x : SX.Idx → EReal) (wq wk : SW.Idx → EReal) (hx : ∀ i, ∃ r : ℝ, x i = (r : EReal))
    (hq : ∀ i, ∃ r : ℝ, wq i = (r : EReal)) (hk : ∀ i, ∃ r : ℝ, wk i = (r : EReal)) (b : Fin 4) (t s : Fin 4096) :
    ∃ r : ℝ, score x wq wk b t s = (r : EReal) :=
  isReal_mul (isReal_sum_mul (fun h => proj_real x wq hx hq b t h) (fun h => proj_real x wk hx hk b s h))
    ⟨1 / 32, scale_eq⟩

/-- On real arguments the result in the reference's order of operations is the result in the kernel's. -/
theorem outRef_eq_out (x : SX.Idx → EReal) (wk wq wv : SW.Idx → EReal) (hx : ∀ i, ∃ r : ℝ, x i = (r : EReal))
    (hk : ∀ i, ∃ r : ℝ, wk i = (r : EReal)) (hq : ∀ i, ∃ r : ℝ, wq i = (r : EReal))
    (hv : ∀ i, ∃ r : ℝ, wv i = (r : EReal)) : outRef x wk wq wv = out x wk wq wv :=
  funext fun i => attnRowRef_eq_attnRow (by norm_num) _ _ (fun s => score_real x wq wk hx hq hk (i 0) (i 1) s)
    (fun s => proj_real x wv hx hv (i 0) s (i 2))

end Cert.Attn

end
-- ==== Proof.Finite.lean ====
/-
  From the precondition to real entries. The precondition says that the conjunction, over the four argument arrays, of
  "every entry's absolute value is below +∞" is true. A conjunction of truth values that is 1 has every conjunct 1; a
  reduction by `and` over every axis that is 1 had a 1 at every index; and an extended real x with max x (−x) < ⊤ is
  neither ⊤ nor ⊥ (for both the maximum is ⊤), hence a real number.
-/
import proofs.«126636_j16612933501467_2_alg».proof.Defs
import Idealize.ShloMosaic.Lib.ReduceAll
import Idealize.ShloMosaic.Lib.ValueIdx

noncomputable section

namespace Cert.Finite

open Idealize.ShloMosaic Idealize.ShloMosaic.ValueIdx Idealize.SL.Sem

/-- The scalar shape has one index. -/
instance : Subsingleton Cert.Pre_finite_inputs.S_.Idx := ⟨fun _ _ => funext fun d => d.elim0⟩

/-- An extended real whose absolute value compares below the pattern of +∞ is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨r, rfl⟩

/-- An array all of whose entries pass that comparison, by the reduction by `and` over every axis, has real entries. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, a i = (r : EReal) :=
  real_of_abs_lt_inf (a i) (Host.reduce_andi_all _ _ hr hu ix0 e i)

variable [Cert.Pre_finite_inputs.Facts]

/-- The printed predicate, all ones, gives real entries of its four arguments. -/
theorem real_of_fn (a0 : FVec Ideal Cert.Pre_finite_inputs.S4x4096x1024 .f32)
    (a1 a2 a3 : FVec Ideal Cert.Pre_finite_inputs.S1024x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_all a0 _ _ _ e0 i, fun i => real_of_all a1 _ _ _ e1 i, fun i => real_of_all a2 _ _ _ e2 i,
    fun i => real_of_all a3 _ _ _ e3 i⟩

/-- Under the precondition every entry of the four argument arrays, on every device, is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0)
        : FVec Ideal Cert.Pre_finite_inputs.S4x4096x1024 .f32) i = (r : EReal))
      ∧ (∀ i, ∃ r : ℝ, (m ((c.tc : Thread Cert.KernelIdeal.nD Cert.KernelIdeal.τ).loc Cert.KernelIdeal.main_arg1)
        : FVec Ideal Cert.Pre_finite_inputs.S1024x128 .f32) i = (r : EReal))
      ∧ (∀ i, ∃ r : ℝ, (m ((c.tc : Thread Cert.KernelIdeal.nD Cert.KernelIdeal.τ).loc Cert.KernelIdeal.main_arg2)
        : FVec Ideal Cert.Pre_finite_inputs.S1024x128 .f32) i = (r : EReal))
      ∧ (∀ i, ∃ r : ℝ, (m ((c.tc : Thread Cert.KernelIdeal.nD Cert.KernelIdeal.τ).loc Cert.KernelIdeal.main_arg3)
        : FVec Ideal Cert.Pre_finite_inputs.S1024x128 .f32) i = (r : EReal)) :=
  real_of_fn _ _ _ _ (h c)

end Cert.Finite

end
-- ==== Proof.lean ====
/-
  One attention head, computed two ways. The kernel's program concatenates the three weight matrices, projects the
  input by them in one Pallas call (a 4 × 2 grid of 2048-row blocks, one whole-K matmul per block), and in a second
  call (a 4 × 8 grid of 512 query rows, all 4096 keys and values of the batch resident) forms the scaled scores, the
  row maximum, the exponentials, their row sum, the weighted sum of the values, and divides once by the row sum. The
  reference projects three times, forms the same scores, and normalizes each weight before the weighted sum.
  At the ideal instance the two agree entry by entry: both are the specification's `out` (Proof/Spec.lean) — the
  kernel's result by reading each call's array after its last write-back as one function of the call's inputs, the
  reference's by reading its operations one at a time; the two orders of the division agree because, the inputs being
  finite, every weight and every row sum is a real number and the row sum is positive.
  The frames: each call's pipeline is run point by point (the body loads its windows whole, stores one value covering
  its output window); the attention call's three input windows share the projections' array, dealt to them in three
  shares and rejoined unchanged.
-/
import proofs.«126636_j16612933501467_2_alg».proof.Defs
import proofs.«126636_j16612933501467_2_alg».proof.Proof.Gen.Kernel
import proofs.«126636_j16612933501467_2_alg».proof.Proof.Gen.KernelIdeal
import proofs.«126636_j16612933501467_2_alg».proof.Proof.Gen.ReferenceIdeal
import proofs.«126636_j16612933501467_2_alg».proof.Proof.Gen.Pre_finite_inputs
import proofs.«126636_j16612933501467_2_alg».proof.Proof.Gen.ReferenceIdeal.Run
import proofs.«126636_j16612933501467_2_alg».proof.Proof.KB.Run
import proofs.«126636_j16612933501467_2_alg».proof.Proof.KI.Run
import proofs.«126636_j16612933501467_2_alg».proof.Proof.KI.Bridge
import proofs.«126636_j16612933501467_2_alg».proof.Proof.RefValue
import proofs.«126636_j16612933501467_2_alg».proof.Proof.Softmax
import proofs.«126636_j16612933501467_2_alg».proof.Proof.Finite
import Idealize.ShloMosaic.Adequacy
import Idealize.ShloMosaic.Init

noncomputable section

namespace Cert.Proof

open Idealize.ShloMosaic Idealize.SL.Sem

/-- The kernel's program as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the specification's `out` of the (agreeing, finite) arguments. -/
theorem algebraic : Cert.algebraic_KernelIdeal_ReferenceIdeal := by
  intro m ρ m' ρ' hpre hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HandValue.kernel_out m c), (h c).2⟩)
      (Cert.KernelIdeal.Hand.run_out m ρ)
  · refine (θ_run Cert.ReferenceIdeal.defs _ _).mono (fun _ h c => ⟨(h c).1.trans ?_, (h c).2⟩)
      (Cert.ReferenceIdeal.Value.run (F := Ideal) m' ρ')
    obtain ⟨hx, hk, hq, hv⟩ := Cert.Finite.real_of_pre m hpre c
    rw [Cert.ReferenceIdeal.Read.val_main_v17_eq, Cert.RefValue.ref_eq_outRef, (hagree c).1, (hagree c).2.1, (hagree c).2.2.1, (hagree c).2.2.2]
    exact Cert.Attn.outRef_eq_out _ _ _ _ hx hk hq hv

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
